-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x256 .f32) (main_arg3 : FVec F S256 .f32) (main_arg4 : FVec F S256x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S400x10000 : Shape := ⟨2, ![400, 10000]⟩
abbrev S400x256 : Shape := ⟨2, ![400, 256]⟩
abbrev S400x5000 : Shape := ⟨2, ![400, 5000]⟩
abbrev S5000x256 : Shape := ⟨2, ![5000, 256]⟩

abbrev nBuf : Space → Nat
  | .hbm => 11
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .bf16⟩
  | .hbm, ⟨7, _⟩ => ⟨S1x256, .f32⟩
  | .hbm, ⟨8, _⟩ => ⟨S256x256, .bf16⟩
  | .hbm, ⟨9, _⟩ => ⟨S1x256, .f32⟩
  | .hbm, ⟨10, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S256x256, .bf16⟩
  | .local _ .vmem, ⟨4, _⟩ => ⟨S1x256, .f32⟩
  | .local _ .vmem, ⟨5, _⟩ => ⟨S256x256, .bf16⟩
  | .local _ .vmem, ⟨6, _⟩ => ⟨S1x256, .f32⟩
  | .local _ .vmem, ⟨7, _⟩ => ⟨S400x256, .f32⟩
  | .local _ .vmem, ⟨8, _⟩ => ⟨S400x256, .f32⟩
  | .local _ .vmem, ⟨9, _⟩ => ⟨S10000x256, .bf16⟩
  | .local _ .vmem, ⟨10, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![51], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c25_i32 : BitVec 32 := 25#32
  let v4 : BitVec 1 := Scalar.cmpi .sle arg0 c25_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c1_i32_3 : BitVec 32 := 1#32
  let v11 : BitVec 32 := Scalar.subi arg0 c1_i32_3
  let c400_i32 : BitVec 32 := 400#32
  let v36 : BitVec 32 := Scalar.muli v11 c400_i32
  let v37 : Index := Scalar.indexCast v36
  let c0_20 : Index := 0#32
  ![v37.toNat, 0]
def k0_cond3 (i : grid0.Coords) : BitVec 1 :=
  let arg0 : BitVec 32 := BitVec.ofNat 32 (i 0).val
  let c26_i32 : BitVec 32 := 26#32
  let v8 : BitVec 1 := Scalar.cmpi .sge arg0 c26_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let c25_i32 : BitVec 32 := 25#32
  let v0 : BitVec 1 := Scalar.cmpi .sle arg0 c25_i32
  let c1_i32 : BitVec 32 := 1#32
  let v1 : BitVec 32 := Scalar.subi arg0 c1_i32
  let c0_i32 : BitVec 32 := 0#32
  let v2 : BitVec 32 := Scalar.maxsi v1 c0_i32
  let c50_i32 : BitVec 32 := 50#32
  let v3 : BitVec 32 := Scalar.subi c50_i32 arg0
  let v4 : BitVec 32 := Scalar.select v0 v2 v3
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c25_i32 : BitVec 32 := 25#32
  let v0 : BitVec 1 := Scalar.cmpi .sgt arg0 c25_i32
  let c50_i32 : BitVec 32 := 50#32
  let v1 : BitVec 32 := Scalar.subi c50_i32 arg0
  let c24_i32 : BitVec 32 := 24#32
  let v2 : BitVec 32 := Scalar.select v0 v1 c24_i32
  let c0_i32 : BitVec 32 := 0#32
  let c0_i32_0 : BitVec 32 := 0#32
  ![v2.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x5000_0_0 : ∀ a, (![0, 0] : Fin 2 → Nat) a + S400x5000.size a ≤ S400x10000.size a
  h_S400x5000 : 0 < S400x5000.numel
  inb_S10000x256_S5000x256_0_0 : ∀ a, (![0, 0] : Fin 2 → Nat) a + S5000x256.size a ≤ S10000x256.size a
  h_S5000x256 : 0 < S5000x256.numel
  inb_S400x10000_S400x5000_0_5000 : ∀ a, (![0, 5000] : Fin 2 → Nat) a + S400x5000.size a ≤ S400x10000.size a
  inb_S10000x256_S5000x256_5000_0 : ∀ a, (![5000, 0] : Fin 2 → Nat) a + S5000x256.size a ≤ S10000x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  h_S400x256 : 0 < S400x256.numel
  shapeCasts_S400x256_S400x256 : S400x256.ShapeCasts S400x256
  inb_S400x256_S400x256_0_0 : ∀ a, (![0, 0] : Fin 2 → Nat) a + S400x256.size a ≤ S400x256.size a
  dot_S400x5000_S5000x256_S400x256_1_0_0_1_n_n_wf : DotDims.WF S400x5000 S5000x256 S400x256 [1] [0] [0] [1] [] []
  dot_S400x256_S256x256_S400x256_1_0_0_1_n_n_wf : DotDims.WF S400x256 S256x256 S400x256 [1] [0] [0] [1] [] []
  hrank0 : 0 < grid0.rank
  k0_off1_inb : ∀ i : grid0.Coords, ∀ (k0_h2 : k0_cond2 i = 1#1), ∀ a, (k0_off1 i) a + S400x256.size a ≤ S10000x256.size a
  k0_off1_packedbf16 : ∀ i : grid0.Coords, ∀ (k0_h2 : k0_cond2 i = 1#1), (Rect.unit (s := S10000x256) (k0_off1 i) S400x256.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x256.size a ≤ S10000x256.size a
  hwx0_6 : ∀ i : grid0.Coords, EltTy.bits .f32 = 32 ∨ (Rect.block (s := S10000x256) S400x256.size (cc0_transform_6 i) (hinb0_6 i)).WholeWords (EltTy.packing .f32)

variable [Facts₀]

def dot_S400x5000_S5000x256_S400x256_1_0_0_1_n_n : DotDims S400x5000 S5000x256 S400x256 where
  lhsContracting := [1]
  rhsContracting := [0]
  lhsNonContracting := [0]
  rhsNonContracting := [1]
  lhsBatch := []
  rhsBatch := []
  wf := dot_S400x5000_S5000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S400x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S10000x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .f32⟩
  | .hbm, ⟨14, _⟩ => ⟨S10000x256, .f32⟩
  | .hbm, ⟨15, _⟩ => ⟨S10000x256, .f32⟩
  | .hbm, ⟨16, _⟩ => ⟨S1x256, .f32⟩
  | .hbm, ⟨17, _⟩ => ⟨S10000x256, .f32⟩
  | .hbm, ⟨18, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.KRuns.lean ====
import proofs.«123976_g54683523612746_cont_9to1_m_282_10_alg».proof.Proof.Gen.Kernel.Frame
import proofs.«123976_g54683523612746_cont_9to1_m_282_10_alg».proof.Proof.Gen.Kernel.Skeleton
import Idealize.ShloMosaic.Lib.WritesUnit
import Idealize.ShloMosaic.Lib.ValueIdx
import Idealize.ShloMosaic.Lib.Pipeline.Value

/-!
The kernel body, case by case.

The body has three guarded regions and every grid point enters exactly one of them: the first point casts the
features into the first scratch; points 1 to 25 each compute one block of 400 rows of
`relu ((A · X) · W0 + b0) · W1` and store it into rows `400 (t - 1) …` of the second scratch; points 26 to 50 each
compute one block of 400 rows of `A · (second scratch) + b1` into the output block. For each case: the body run on
whole buffers, and what the buffer it stores into reads afterwards, as a function of what the buffers held.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The branch conditions over the grid -/

/-- The body's first branch is taken exactly at the first grid point. -/
abbrev condA (i : grid0.Coords) : Prop :=
  Scalar.cmpi .ne (Scalar.extui (Scalar.cmpi .eq (BitVec.ofNat 32 (i 0).val) 0#32) : BitVec 32) 0#32 = 1#1
/-- The second branch (the first pass over the adjacency blocks). -/
abbrev condB (i : grid0.Coords) : Prop := k0_cond2 i = 1#1
/-- The third branch (the second pass). -/
abbrev condC (i : grid0.Coords) : Prop := k0_cond3 i = 1#1

/-- The first branch is taken at point 0 only. -/
theorem hcondA : ∀ t : Fin cfg0.N, condA (grid0.coords t) ↔ t.val = 0 :=
  (by decide +kernel : ∀ t : Fin grid0.N, condA (grid0.coords t) ↔ t.val = 0)
/-- The second at points 1 to 25. -/
theorem hcondB : ∀ t : Fin cfg0.N, condB (grid0.coords t) ↔ (1 ≤ t.val ∧ t.val ≤ 25) :=
  (by decide +kernel : ∀ t : Fin grid0.N, condB (grid0.coords t) ↔ (1 ≤ t.val ∧ t.val ≤ 25))
/-- The third from point 26 on. -/
theorem hcondC : ∀ t : Fin cfg0.N, condC (grid0.coords t) ↔ 26 ≤ t.val :=
  (by decide +kernel : ∀ t : Fin grid0.N, condC (grid0.coords t) ↔ 26 ≤ t.val)
/-- At point `t` of the first pass the block of the second scratch that is stored starts at row `400 (t - 1)`. -/
theorem hoffB : ∀ t : Fin cfg0.N, 1 ≤ t.val → t.val ≤ 25 → k0_off1 (grid0.coords t) = ![400 * (t.val - 1), 0] :=
  (by decide +kernel : ∀ t : Fin grid0.N, 1 ≤ t.val → t.val ≤ 25 → k0_off1 (grid0.coords t) = ![400 * (t.val - 1), 0])

/-! ## The rectangles the body loads and stores through, and its three payloads over plain arrays -/

abbrev rA0 : Rect S400x10000 := Rect.unit (s := S400x10000) ![0, 0] S400x5000.size inb_S400x10000_S400x5000_0_0
abbrev rA1 : Rect S400x10000 := Rect.unit (s := S400x10000) ![0, 5000] S400x5000.size inb_S400x10000_S400x5000_0_5000
abbrev rS0 : Rect S10000x256 := Rect.unit (s := S10000x256) ![0, 0] S5000x256.size inb_S10000x256_S5000x256_0_0
abbrev rS1 : Rect S10000x256 := Rect.unit (s := S10000x256) ![5000, 0] S5000x256.size inb_S10000x256_S5000x256_5000_0
abbrev rW : Rect S256x256 := Rect.unit (s := S256x256) ![0, 0] S256x256.size inb_S256x256_S256x256_0_0
abbrev rb : Rect S1x256 := Rect.unit (s := S1x256) ![0, 0] S1x256.size inb_S1x256_S1x256_0_0
abbrev rX : Rect S10000x256 := Rect.unit (s := S10000x256) ![0, 0] S10000x256.size inb_S10000x256_S10000x256_0_0
abbrev rO : Rect S400x256 := Rect.unit (s := S400x256) ![0, 0] S400x256.size inb_S400x256_S400x256_0_0

/-- The first point's payload: the features, cast. -/
def payA (x2 : Vec F S10000x256 .f32) : Vec F S10000x256 .bf16 := k0_pay1 (View.ld x2 rX)
/-- A first-pass point's payload: one block of rows of `relu ((A · X) · W0 + b0) · W1`, from the adjacency block
    `x1`, the cast features `xs0`, the weights and the bias. -/
def payB (x1 : Vec F S400x10000 .f32) (xs0 : Vec F S10000x256 .bf16) (x3 : Vec F S256x256 .bf16) (x4 : Vec F S1x256 .f32)
    (x5 : Vec F S256x256 .bf16) : Vec F S400x256 .bf16 :=
  k0_pay2 (View.ld x1 rA0) (View.ld xs0 rS0) (View.ld x1 rA1) (View.ld xs0 rS1) (View.ld x3 rW) (View.ld x4 rb) (View.ld x5 rW)
/-- A second-pass point's payload: one block of rows of `A · S + b1`, from the adjacency block `x1`, the kept
    array `xs1` and the bias. -/
def payC (x1 : Vec F S400x10000 .f32) (xs1 : Vec F S10000x256 .bf16) (x6 : Vec F S1x256 .f32) : Vec F S400x256 .f32 :=
  k0_pay3 (View.ld x1 rA0) (View.ld xs1 rS0) (View.ld x1 rA1) (View.ld xs1 rS1) (View.ld x6 rb)

/-! ## The body on whole buffers, case by case -/

set_option maxHeartbeats 1000000 in
/-- The body at the first point: it stores the cast features over the whole first scratch and touches nothing else; the pieces each scratch ends with are found by the run. -/
noncomputable def runA (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : condA i) (hB : ¬condB i) (hC : ¬condC i)
    (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32) :
    Σ' (LS0 : List (View.Piece (Elt F) S10000x256 .bf16)), { LS1 : List (View.Piece (Elt F) S10000x256 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, [], fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfs0; obtain rfl := harg9.eq_unread hfs1
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexact HS0
    iexact HS1

set_option maxHeartbeats 1000000 in
/-- The body at a point of the first pass: it stores one block of 400 rows into the second scratch at the rows the point names (`hl`), and touches nothing else. -/
noncomputable def runB (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : ¬condA i) (hB : condB i) (hC : ¬condC i) (n : ℕ) (hl : k0_off1 i = ![400 * n, 0])
    (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32) :
    Σ' (LS0 : List (View.Piece (Elt F) S10000x256 .bf16)), { LS1 : List (View.Piece (Elt F) S10000x256 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨[], ?_, fun E K => ?run⟩
  case run =>
    letI : ClosedOff (k0_off1 i) := ⟨![400 * n, 0], hl⟩
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfs0; obtain rfl := harg9.eq_unread hfs1
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexact HS0
    iexact HS1

set_option maxHeartbeats 1000000 in
/-- The body at a point of the second pass: it stores the output block whole and leaves both scratch buffers as they were. -/
noncomputable def runC (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : ¬condA i) (hB : ¬condB i) (hC : condC i)
    (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) :
    Σ' (L7 : List (View.Piece (Elt F) S400x256 .f32)) (LS0 : List (View.Piece (Elt F) S10000x256 .bf16)), { LS1 : List (View.Piece (Elt F) S10000x256 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, [], [], fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hfs0; obtain rfl := harg9.eq_unread hfs1
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [HS0]; · iexact HS0
    iexact HS1

/-- One store through the whole-shape rectangle leaves its payload, whatever the buffer held. -/
theorem read_writes_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-! ## What each case leaves -/

/-- After the first point the first scratch reads the cast features, whatever it held. -/
theorem runA_sc0 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : condA i) (hB : ¬condB i) (hC : ¬condC i) (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32) :
    arg8.view.read (Elt F) (arg8.view.writes (Elt F) (harg8.unread xs0) (runA c i arg1 harg1 arg2 harg2 arg3 harg3 arg4 harg4 arg5 harg5 arg6 harg6 arg7 harg7 arg8 harg8 arg9 harg9 hA hB hC x1 x2 x3 x4 x5 x6 xs0 xs1 x7).1) = payA x2 := by
  unfold runA payA; dsimp only
  simp only [View.readAt_eq_ld, Memref.IsWhole.read_unread]
  exact read_writes_whole (S := S10000x256) _ _ (by funext a; match a with | ⟨0, _⟩ => rfl | ⟨1, _⟩ => rfl) inb_S10000x256_S10000x256_0_0 _

/-- and the second scratch is as it was. -/
theorem runA_sc1 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : condA i) (hB : ¬condB i) (hC : ¬condC i) (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32) :
    arg9.view.read (Elt F) (arg9.view.writes (Elt F) (harg9.unread xs1) (runA c i arg1 harg1 arg2 harg2 arg3 harg3 arg4 harg4 arg5 harg5 arg6 harg6 arg7 harg7 arg8 harg8 arg9 harg9 hA hB hC x1 x2 x3 x4 x5 x6 xs0 xs1 x7).2.1) = xs1 :=
  harg9.read_unread xs1

/-- After a first-pass point the first scratch is as it was; -/
theorem runB_sc0 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : ¬condA i) (hB : condB i) (hC : ¬condC i) (n : ℕ) (hl : k0_off1 i = ![400 * n, 0]) (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32) :
    arg8.view.read (Elt F) (arg8.view.writes (Elt F) (harg8.unread xs0) (runB c i arg1 harg1 arg2 harg2 arg3 harg3 arg4 harg4 arg5 harg5 arg6 harg6 arg7 harg7 arg8 harg8 arg9 harg9 hA hB hC n hl x1 x2 x3 x4 x5 x6 xs0 xs1 x7).1) = xs0 :=
  harg8.read_unread xs0

/-- the second scratch reads the point's payload on the 400 rows from `400 n`, -/
theorem runB_sc1_in (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : ¬condA i) (hB : condB i) (hC : ¬condC i) (n : ℕ) (hl : k0_off1 i = ![400 * n, 0]) (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32)
    (j : S10000x256.Idx) (x : S400x256.Idx) (h0 : (j 0).val = 400 * n + (x 0).val) (h1 : (j 1).val = (x 1).val) :
    arg9.view.read (Elt F) (arg9.view.writes (Elt F) (harg9.unread xs1) (runB c i arg1 harg1 arg2 harg2 arg3 harg3 arg4 harg4 arg5 harg5 arg6 harg6 arg7 harg7 arg8 harg8 arg9 harg9 hA hB hC n hl x1 x2 x3 x4 x5 x6 xs0 xs1 x7).2.1) j
      = payB x1 xs0 x3 x4 x5 x := by
  unfold runB payB; dsimp only
  simp only [View.readAt_eq_ld, Memref.IsWhole.read_unread]
  exact View.read_writes_cons_unit_of_mem _ _ _ _ [] j x hl (fun a => by
    match a with
    | ⟨0, _⟩ => exact h0
    | ⟨1, _⟩ => show (j 1).val = 0 + (x 1).val; omega)

/-- and what it held on every other row. -/
theorem runB_sc1_out (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : ¬condA i) (hB : condB i) (hC : ¬condC i) (n : ℕ) (hl : k0_off1 i = ![400 * n, 0]) (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32)
    (j : S10000x256.Idx) (h : (j 0).val < 400 * n ∨ 400 * n + 400 ≤ (j 0).val) :
    arg9.view.read (Elt F) (arg9.view.writes (Elt F) (harg9.unread xs1) (runB c i arg1 harg1 arg2 harg2 arg3 harg3 arg4 harg4 arg5 harg5 arg6 harg6 arg7 harg7 arg8 harg8 arg9 harg9 hA hB hC n hl x1 x2 x3 x4 x5 x6 xs0 xs1 x7).2.1) j
      = xs1 j := by
  unfold runB; dsimp only
  refine Eq.trans (View.read_writes_cons_unit_of_not_mem _ _ _ _ [] j hl 0 ?_) ?_
  · exact h
  · exact congrFun (harg9.read_unread xs1) j

/-- After a second-pass point the output block reads the point's payload, whatever it held. -/
theorem runC_out (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : ¬condA i) (hB : ¬condB i) (hC : condC i) (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (f : arg7.view.ty.Contents (Elt F)) :
    arg7.view.read (Elt F) (arg7.view.writes (Elt F) f (runC c i arg1 harg1 arg2 harg2 arg3 harg3 arg4 harg4 arg5 harg5 arg6 harg6 arg7 harg7 arg8 harg8 arg9 harg9 hA hB hC x1 x2 x3 x4 x5 x6 xs0 xs1).1) = payC x1 xs1 x6 := by
  unfold runC payC; dsimp only
  simp only [View.readAt_eq_ld, Memref.IsWhole.read_unread]
  exact read_writes_whole (S := S400x256) _ _ (by funext a; match a with | ⟨0, _⟩ => rfl | ⟨1, _⟩ => rfl) inb_S400x256_S400x256_0_0 _

end Cert.Kernel.Hand
end
-- ==== Proof.KBody.lean ====
import proofs.«123976_g54683523612746_cont_9to1_m_282_10_alg».proof.Proof.KRuns

/-!
The frame of the kernel: it runs to the end, faults nowhere and leaves its argument arrays unchanged — and, on the
way, what its output blocks hold.

The kernel keeps two arrays between grid points: the cast features (written at the first point) and, filled 400 rows
per point over points 1 to 25, the array `S = relu ((A · X) · W0 + b0) · W1`, which points 26 to 50 read whole. The
invariant carried from point to point is relational: before point `n` the first array holds the cast features once
`n ≥ 1`, and the second holds SOME contents that agree with `S` (`S1spec`) on the rows below `400 (n - 1)`. From
point 26 on that is all of it, so each output block is a function of the argument arrays alone (`outSpec`).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The buffers the body is called with -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x256 .f32 := win0_6.stage (cfg0.slots t 6)
abbrev hs6 (t : Fin cfg0.N) : (ms6 t).IsWhole := hstage0_6 ((cfg0.slots t 6).cast nbuf0_6)
/-- The two arrays the kernel keeps between points: whole scoped buffers of its own. -/
abbrev sc0 : Memref sig .tc .vmem S10000x256 .bf16 := Memref.whole cc0_scratch0
abbrev sc1 : Memref sig .tc .vmem S10000x256 .bf16 := Memref.whole cc0_scratch1

/-- What the launch hands the region besides the windows: the two kept arrays at some contents, and the generator
    register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## Where the windows are idle -/

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun _ => rfl
theorem liveAt3 : ∀ t : Fin cfg0.N, cfg0.idle 3 (grid0.coords t) = false := fun _ => rfl
theorem liveAt4 : ∀ t : Fin cfg0.N, cfg0.idle 4 (grid0.coords t) = false := fun _ => rfl
theorem liveAt5 : ∀ t : Fin cfg0.N, cfg0.idle 5 (grid0.coords t) = false := fun _ => rfl
/-- The output window is stored at the points of the second pass, -/
theorem liveAt6 : ∀ t : Fin cfg0.N, condC (grid0.coords t) → cfg0.idle 6 (grid0.coords t) = false :=
  (by decide +kernel : ∀ t : Fin grid0.N, condC (grid0.coords t) → cfg0.idle 6 (grid0.coords t) = false)
/-- idle before it, -/
theorem idleAt6 : ∀ t : Fin cfg0.N, ¬condC (grid0.coords t) → cfg0.idle 6 (grid0.coords t) = true :=
  (by decide +kernel : ∀ t : Fin grid0.N, ¬condC (grid0.coords t) → cfg0.idle 6 (grid0.coords t) = true)
/-- and not written back there: its block index stays at the last block until the second pass starts. -/
theorem noFlush6 : ∀ t : Fin cfg0.N, ¬condC (grid0.coords t) → (cfg0.win 6).flush t = false :=
  (by decide +kernel : ∀ t : Fin grid0.N, ¬condC (grid0.coords t) → win0_6.flush t = false)

/-! ## What the kept arrays and the output blocks hold -/

/-- The first point of the grid. -/
abbrev t0 : Fin cfg0.N := ⟨0, by decide⟩

/-- The cast features. -/
def x16 (c : Dev nD) : Vec F S10000x256 .bf16 := payA (iblk m c 1 t0)

/-- The 400 rows of `S` that point `t` of the first pass computes. -/
def keptAt (c : Dev nD) (t : Fin cfg0.N) : Vec F S400x256 .bf16 :=
  payB (iblk m c 0 t) (x16 m c) (iblk m c 2 t) (iblk m c 3 t) (iblk m c 4 t)

/-- `S`: row `r` is row `r % 400` of what point `r / 400 + 1` computes. -/
def S1spec (c : Dev nD) : Vec F S10000x256 .bf16 := fun j =>
  keptAt m c ⟨(j 0).val / 400 + 1, by rw [show cfg0.N = 51 from N_0]; have := idx2_lt0 j; omega⟩
    (ix2 (⟨(j 0).val % 400, Nat.mod_lt _ (by norm_num)⟩ : Fin 400) (j 1 : Fin 256))

/-- `S` on the rows point `t` of the first pass stores. -/
theorem S1spec_at (c : Dev nD) (t : Fin cfg0.N) (h1 : 1 ≤ t.val) (h25 : t.val ≤ 25) (j : S10000x256.Idx) (x : S400x256.Idx)
    (h0 : (j 0).val = 400 * (t.val - 1) + (x 0).val) (hc : (j 1).val = (x 1).val) :
    S1spec m c j = keptAt m c t x := by
  have hx0 : (x 0).val < 400 := idx2_lt0 x
  have ht : (⟨(j 0).val / 400 + 1, by rw [show cfg0.N = 51 from N_0]; have := idx2_lt0 j; omega⟩ : Fin cfg0.N) = t :=
    Fin.ext (by show (j 0).val / 400 + 1 = t.val; omega)
  have hx : ix2 (⟨(j 0).val % 400, Nat.mod_lt _ (by norm_num)⟩ : Fin 400) (j 1 : Fin 256) = x := by
    funext a
    match a with
    | ⟨0, _⟩ => exact Fin.ext (by show (j 0).val % 400 = (x 0).val; omega)
    | ⟨1, _⟩ => exact Fin.ext hc
  unfold S1spec
  rw [ht]
  exact congrArg (keptAt m c t) hx

/-- What the kept arrays hold before point `n`. -/
def Inv (c : Dev nD) (n : ℕ) (xs0 xs1 : Vec F S10000x256 .bf16) : Prop :=
  (1 ≤ n → xs0 = x16 m c) ∧ ∀ j : S10000x256.Idx, (j 0).val + 400 < 400 * n → xs1 j = S1spec m c j

/-- The invariant before point `n`: the two kept arrays at some contents satisfying `Inv`, and the generator
    register at some state. -/
def PhiS (c : Dev nD) (n : ℕ) : sProp 𝕄 :=
  iprop(∃ xs0 xs1, ⌜Inv m c n xs0 xs1⌝ ∗ owns (c : Thread nD τ) sc0 fullShare xs0 ∗ owns (c : Thread nD τ) sc1 fullShare xs1 ∗ (∃ r, prngReg c r))

/-- The output block a point of the second pass leaves. -/
def outSpec (c : Dev nD) (t : Fin cfg0.N) : Vec F S400x256 .f32 := payC (iblk m c 0 t) (S1spec m c) (iblk m c 5 t)

/-! ## The proof data -/

/-- The arrays as the region finds them; each input's buffer at its block after the body, the output's at `outSpec`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outSpec m c t
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outSpec m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
/-- The body at any point. Which of the three cases the point is in is decided by its position; the invariant hands
    the body the two kept arrays at contents satisfying `Inv` and takes them back at what the case leaves, which
    satisfies `Inv` at the next point: the first point establishes the cast features; a first-pass point adds its 400
    rows of `S`; a second-pass point changes neither, and its output block is `outSpec` because by then the second
    array is `S` on every row. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, PhiS_castSucc m c t]
  unfold PhiS
  have hN : t.val < 51 := lt_of_lt_of_eq t.isLt (show cfg0.N = 51 from N_0)
  rw [show (dats m 0 c).leavesExact 0 t = owns (c : Thread nD τ) (ms0 t) fullShare ((dats m 0 c).after 0 t) from by
      unfold Dat.leavesExact; rw [liveAt0 t], after0_0]
  rw [show (dats m 0 c).leavesExact 1 t = owns (c : Thread nD τ) (ms1 t) fullShare ((dats m 0 c).after 1 t) from by
      unfold Dat.leavesExact; rw [liveAt1 t], after0_1]
  rw [show (dats m 0 c).leavesExact 2 t = owns (c : Thread nD τ) (ms2 t) fullShare ((dats m 0 c).after 2 t) from by
      unfold Dat.leavesExact; rw [liveAt2 t], after0_2]
  rw [show (dats m 0 c).leavesExact 3 t = owns (c : Thread nD τ) (ms3 t) fullShare ((dats m 0 c).after 3 t) from by
      unfold Dat.leavesExact; rw [liveAt3 t], after0_3]
  rw [show (dats m 0 c).leavesExact 4 t = owns (c : Thread nD τ) (ms4 t) fullShare ((dats m 0 c).after 4 t) from by
      unfold Dat.leavesExact; rw [liveAt4 t], after0_4]
  rw [show (dats m 0 c).leavesExact 5 t = owns (c : Thread nD τ) (ms5 t) fullShare ((dats m 0 c).after 5 t) from by
      unfold Dat.leavesExact; rw [liveAt5 t], after0_5]
  by_cases h26 : 26 ≤ t.val
  · -- the second pass
    have cA : ¬condA (grid0.coords t) := fun h => by have := (hcondA t).mp h; omega
    have cB : ¬condB (grid0.coords t) := fun h => by have := (hcondB t).mp h; omega
    have cC : condC (grid0.coords t) := (hcondC t).mpr h26
    rw [show (dats m 0 c).leavesExact 6 t = owns (c : Thread nD τ) (ms6 t) fullShare ((dats m 0 c).after 6 t) from by
      unfold Dat.leavesExact; rw [liveAt6 t cC], after0_6]
    iintro ⟨⟨%xs0, %xs1, %hI, HS0, HS1, Hg⟩, Ho, ⟨%d0, H0⟩, ⟨%d1, H1⟩, ⟨%d2, H2⟩, ⟨%d3, H3⟩, ⟨%d4, H4⟩, ⟨%d5, H5⟩, ⟨%d6, H6⟩⟩
    iapply ((runC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) cA cB cC (iblk m c 0 t) (iblk m c 1 t) (iblk m c 2 t) (iblk m c 3 t) (iblk m c 4 t) (iblk m c 5 t) xs0 xs1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f7, H7⟩, HS0, HS1⟩
    isplitl [HS0 HS1 Hg]
    · iexists xs0, xs1
      isplitr
      · ipureintro
        exact ⟨fun _ => hI.1 (by omega), fun j _ => hI.2 j (by have := idx2_lt0 j; omega)⟩
      isplitl [HS0]
      · unfold owns; iexists _; isplitr; swap; · iexact HS0
        ipureintro; exact (Memref.isWhole_whole _).read_unread _
      isplitl [HS1]
      · unfold owns; iexists _; isplitr; swap; · iexact HS1
        ipureintro; exact (Memref.isWhole_whole _).read_unread _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; · iexact H7
    ipureintro
    rw [runC_out]
    have hS : xs1 = S1spec m c := funext fun j => hI.2 j (by have := idx2_lt0 j; omega)
    rw [hS]; rfl
  · have cC : ¬condC (grid0.coords t) := fun h => h26 ((hcondC t).mp h)
    rw [Dat.leavesExact_idle (dats m 0 c) 6 t (idleAt6 t cC) (noFlush6 t cC)]
    by_cases h0 : t.val = 0
    · -- the first point
      have cA : condA (grid0.coords t) := (hcondA t).mpr h0
      have cB : ¬condB (grid0.coords t) := fun h => by have := (hcondB t).mp h; omega
      have ht0 : t = t0 := Fin.ext h0
      iintro ⟨⟨%xs0, %xs1, %hI, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) cA cB cC (iblk m c 0 t) (iblk m c 1 t) (iblk m c 2 t) (iblk m c 3 t) (iblk m c 4 t) (iblk m c 5 t) xs0 xs1 ((dats m 0 c).before 6 t d6)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · iexists payA (iblk m c 1 t), xs1
        isplitr
        · ipureintro
          refine ⟨fun _ => ?_, fun j hj => ?_⟩
          · rw [ht0]; rfl
          · exact absurd hj (by omega)
        isplitl [HS0]
        · unfold owns; iexists _; isplitr; swap; · iexact HS0
          ipureintro; apply runA_sc0
        isplitl [HS1]
        · unfold owns; iexists _; isplitr; swap; · iexact HS1
          ipureintro; apply runA_sc1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- the first pass
      have h1 : 1 ≤ t.val := by omega
      have h25 : t.val ≤ 25 := by omega
      have cA : ¬condA (grid0.coords t) := fun h => h0 ((hcondA t).mp h)
      have cB : condB (grid0.coords t) := (hcondB t).mpr ⟨h1, h25⟩
      iintro ⟨⟨%xs0, %xs1, %hI, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) cA cB cC (t.val - 1) (hoffB t h1 h25) (iblk m c 0 t) (iblk m c 1 t) (iblk m c 2 t) (iblk m c 3 t) (iblk m c 4 t) (iblk m c 5 t) xs0 xs1 ((dats m 0 c).before 6 t d6)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      have hx0 : xs0 = x16 m c := hI.1 h1
      isplitl [HS0 HS1 Hg]
      · iexists xs0, _
        isplitr; swap
        · isplitl [HS0]
          · unfold owns; iexists _; isplitr; swap; · iexact HS0
            ipureintro; apply runB_sc0
          isplitl [HS1]
          · unfold owns; iexists _; isplitr; swap; · iexact HS1
            ipureintro; rfl
          iexact Hg
        · ipureintro
          refine ⟨fun _ => hx0, fun j hj => ?_⟩
          have hj0 : (j 0).val < 10000 := idx2_lt0 j
          by_cases hin : 400 * (t.val - 1) ≤ (j 0).val
          · have hlt : (j 0).val - 400 * (t.val - 1) < 400 := by omega
            have e := runB_sc1_in c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) cA cB cC (t.val - 1) (hoffB t h1 h25) (iblk m c 0 t) (iblk m c 1 t) (iblk m c 2 t) (iblk m c 3 t) (iblk m c 4 t) (iblk m c 5 t) xs0 xs1 ((dats m 0 c).before 6 t d6)
              j (ix2 (⟨(j 0).val - 400 * (t.val - 1), hlt⟩ : Fin 400) (j 1 : Fin 256)) (by show (j 0).val = 400 * (t.val - 1) + ((j 0).val - 400 * (t.val - 1)); omega) rfl
            refine e.trans ?_
            rw [hx0]
            exact (S1spec_at m c t h1 h25 j _ (by show (j 0).val = 400 * (t.val - 1) + ((j 0).val - 400 * (t.val - 1)); omega) rfl).symm
          · have e := runB_sc1_out c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) cA cB cC (t.val - 1) (hoffB t h1 h25) (iblk m c 0 t) (iblk m c 1 t) (iblk m c 2 t) (iblk m c 3 t) (iblk m c 4 t) (iblk m c 5 t) xs0 xs1 ((dats m 0 c).before 6 t d6)
              j (Or.inl (by omega))
            exact e.trans (hI.2 j (by omega))
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is claimed of the kept arrays yet. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%d0, HS0⟩, ⟨%d1, HS1⟩⟩, Hg⟩
  iexists d0, d1
  isplitr
  · ipureintro; exact ⟨fun h => absurd h (by omega), fun j hj => absurd hj (by omega)⟩
  isplitl [HS0]; · iexact HS0
  isplitl [HS1]; · iexact HS1
  iexact Hg

/-- After the last point the invariant gives it back: what the kept arrays hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨%xs0, %xs1, -, HS0, HS1, Hg⟩
  isplitl [HS0 HS1]
  · isplitl [HS0]; · iexists _; iexact HS0
    iexists _; iexact HS1
  iexact Hg

/-! ## The run and the frame -/

set_option backward.isDefEq.respectTransparency.types false in
/-- Every weakly fair execution of @main terminates, and in every final state each array of the pipeline holds what
    the proof data compute and every other unscoped buffer what the region found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand
end
-- ==== Proof.KiRuns.lean ====
import proofs.«123976_g54683523612746_cont_9to1_m_282_10_alg».proof.Proof.Gen.KernelIdeal.Frame
import proofs.«123976_g54683523612746_cont_9to1_m_282_10_alg».proof.Proof.Gen.KernelIdeal.Skeleton
import Idealize.ShloMosaic.Lib.WritesUnit
import Idealize.ShloMosaic.Lib.ValueIdx
import Idealize.ShloMosaic.Lib.Pipeline.Value

/-!
The kernel body, case by case.

The body has three guarded regions and every grid point enters exactly one of them: the first point casts the
features into the first scratch; points 1 to 25 each compute one block of 400 rows of
`relu ((A · X) · W0 + b0) · W1` and store it into rows `400 (t - 1) …` of the second scratch; points 26 to 50 each
compute one block of 400 rows of `A · (second scratch) + b1` into the output block. For each case: the body run on
whole buffers, and what the buffer it stores into reads afterwards, as a function of what the buffers held.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The branch conditions over the grid -/

/-- The body's first branch is taken exactly at the first grid point. -/
abbrev condA (i : grid0.Coords) : Prop :=
  Scalar.cmpi .ne (Scalar.extui (Scalar.cmpi .eq (BitVec.ofNat 32 (i 0).val) 0#32) : BitVec 32) 0#32 = 1#1
/-- The second branch (the first pass over the adjacency blocks). -/
abbrev condB (i : grid0.Coords) : Prop := k0_cond2 i = 1#1
/-- The third branch (the second pass). -/
abbrev condC (i : grid0.Coords) : Prop := k0_cond3 i = 1#1

/-- The first branch is taken at point 0 only. -/
theorem hcondA : ∀ t : Fin cfg0.N, condA (grid0.coords t) ↔ t.val = 0 :=
  (by decide +kernel : ∀ t : Fin grid0.N, condA (grid0.coords t) ↔ t.val = 0)
/-- The second at points 1 to 25. -/
theorem hcondB : ∀ t : Fin cfg0.N, condB (grid0.coords t) ↔ (1 ≤ t.val ∧ t.val ≤ 25) :=
  (by decide +kernel : ∀ t : Fin grid0.N, condB (grid0.coords t) ↔ (1 ≤ t.val ∧ t.val ≤ 25))
/-- The third from point 26 on. -/
theorem hcondC : ∀ t : Fin cfg0.N, condC (grid0.coords t) ↔ 26 ≤ t.val :=
  (by decide +kernel : ∀ t : Fin grid0.N, condC (grid0.coords t) ↔ 26 ≤ t.val)
/-- At point `t` of the first pass the block of the second scratch that is stored starts at row `400 (t - 1)`. -/
theorem hoffB : ∀ t : Fin cfg0.N, 1 ≤ t.val → t.val ≤ 25 → k0_off1 (grid0.coords t) = ![400 * (t.val - 1), 0] :=
  (by decide +kernel : ∀ t : Fin grid0.N, 1 ≤ t.val → t.val ≤ 25 → k0_off1 (grid0.coords t) = ![400 * (t.val - 1), 0])

/-! ## The rectangles the body loads and stores through, and its three payloads over plain arrays -/

abbrev rA0 : Rect S400x10000 := Rect.unit (s := S400x10000) ![0, 0] S400x5000.size inb_S400x10000_S400x5000_0_0
abbrev rA1 : Rect S400x10000 := Rect.unit (s := S400x10000) ![0, 5000] S400x5000.size inb_S400x10000_S400x5000_0_5000
abbrev rS0 : Rect S10000x256 := Rect.unit (s := S10000x256) ![0, 0] S5000x256.size inb_S10000x256_S5000x256_0_0
abbrev rS1 : Rect S10000x256 := Rect.unit (s := S10000x256) ![5000, 0] S5000x256.size inb_S10000x256_S5000x256_5000_0
abbrev rW : Rect S256x256 := Rect.unit (s := S256x256) ![0, 0] S256x256.size inb_S256x256_S256x256_0_0
abbrev rb : Rect S1x256 := Rect.unit (s := S1x256) ![0, 0] S1x256.size inb_S1x256_S1x256_0_0
abbrev rX : Rect S10000x256 := Rect.unit (s := S10000x256) ![0, 0] S10000x256.size inb_S10000x256_S10000x256_0_0
abbrev rO : Rect S400x256 := Rect.unit (s := S400x256) ![0, 0] S400x256.size inb_S400x256_S400x256_0_0

/-- The first point's payload: the features, cast. -/
def payA (x2 : Vec F S10000x256 .f32) : Vec F S10000x256 .bf16 := k0_pay1 (View.ld x2 rX)
/-- A first-pass point's payload: one block of rows of `relu ((A · X) · W0 + b0) · W1`, from the adjacency block
    `x1`, the cast features `xs0`, the weights and the bias. -/
def payB (x1 : Vec F S400x10000 .f32) (xs0 : Vec F S10000x256 .bf16) (x3 : Vec F S256x256 .bf16) (x4 : Vec F S1x256 .f32)
    (x5 : Vec F S256x256 .bf16) : Vec F S400x256 .bf16 :=
  k0_pay2 (View.ld x1 rA0) (View.ld xs0 rS0) (View.ld x1 rA1) (View.ld xs0 rS1) (View.ld x3 rW) (View.ld x4 rb) (View.ld x5 rW)
/-- A second-pass point's payload: one block of rows of `A · S + b1`, from the adjacency block `x1`, the kept
    array `xs1` and the bias. -/
def payC (x1 : Vec F S400x10000 .f32) (xs1 : Vec F S10000x256 .bf16) (x6 : Vec F S1x256 .f32) : Vec F S400x256 .f32 :=
  k0_pay3 (View.ld x1 rA0) (View.ld xs1 rS0) (View.ld x1 rA1) (View.ld xs1 rS1) (View.ld x6 rb)

/-! ## The body on whole buffers, case by case -/

set_option maxHeartbeats 1000000 in
/-- The body at the first point: it stores the cast features over the whole first scratch and touches nothing else; the pieces each scratch ends with are found by the run. -/
noncomputable def runA (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : condA i) (hB : ¬condB i) (hC : ¬condC i)
    (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32) :
    Σ' (LS0 : List (View.Piece (Elt F) S10000x256 .bf16)), { LS1 : List (View.Piece (Elt F) S10000x256 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, [], fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfs0; obtain rfl := harg9.eq_unread hfs1
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexact HS0
    iexact HS1

set_option maxHeartbeats 1000000 in
/-- The body at a point of the first pass: it stores one block of 400 rows into the second scratch at the rows the point names (`hl`), and touches nothing else. -/
noncomputable def runB (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : ¬condA i) (hB : condB i) (hC : ¬condC i) (n : ℕ) (hl : k0_off1 i = ![400 * n, 0])
    (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32) :
    Σ' (LS0 : List (View.Piece (Elt F) S10000x256 .bf16)), { LS1 : List (View.Piece (Elt F) S10000x256 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨[], ?_, fun E K => ?run⟩
  case run =>
    letI : ClosedOff (k0_off1 i) := ⟨![400 * n, 0], hl⟩
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfs0; obtain rfl := harg9.eq_unread hfs1
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexact HS0
    iexact HS1

set_option maxHeartbeats 1000000 in
/-- The body at a point of the second pass: it stores the output block whole and leaves both scratch buffers as they were. -/
noncomputable def runC (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : ¬condA i) (hB : ¬condB i) (hC : condC i)
    (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) :
    Σ' (L7 : List (View.Piece (Elt F) S400x256 .f32)) (LS0 : List (View.Piece (Elt F) S10000x256 .bf16)), { LS1 : List (View.Piece (Elt F) S10000x256 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, [], [], fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hfs0; obtain rfl := harg9.eq_unread hfs1
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [HS0]; · iexact HS0
    iexact HS1

/-- One store through the whole-shape rectangle leaves its payload, whatever the buffer held. -/
theorem read_writes_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-! ## What each case leaves -/

/-- After the first point the first scratch reads the cast features, whatever it held. -/
theorem runA_sc0 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : condA i) (hB : ¬condB i) (hC : ¬condC i) (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32) :
    arg8.view.read (Elt F) (arg8.view.writes (Elt F) (harg8.unread xs0) (runA c i arg1 harg1 arg2 harg2 arg3 harg3 arg4 harg4 arg5 harg5 arg6 harg6 arg7 harg7 arg8 harg8 arg9 harg9 hA hB hC x1 x2 x3 x4 x5 x6 xs0 xs1 x7).1) = payA x2 := by
  unfold runA payA; dsimp only
  simp only [View.readAt_eq_ld, Memref.IsWhole.read_unread]
  exact read_writes_whole (S := S10000x256) _ _ (by funext a; match a with | ⟨0, _⟩ => rfl | ⟨1, _⟩ => rfl) inb_S10000x256_S10000x256_0_0 _

/-- and the second scratch is as it was. -/
theorem runA_sc1 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : condA i) (hB : ¬condB i) (hC : ¬condC i) (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32) :
    arg9.view.read (Elt F) (arg9.view.writes (Elt F) (harg9.unread xs1) (runA c i arg1 harg1 arg2 harg2 arg3 harg3 arg4 harg4 arg5 harg5 arg6 harg6 arg7 harg7 arg8 harg8 arg9 harg9 hA hB hC x1 x2 x3 x4 x5 x6 xs0 xs1 x7).2.1) = xs1 :=
  harg9.read_unread xs1

/-- After a first-pass point the first scratch is as it was; -/
theorem runB_sc0 (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : ¬condA i) (hB : condB i) (hC : ¬condC i) (n : ℕ) (hl : k0_off1 i = ![400 * n, 0]) (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32) :
    arg8.view.read (Elt F) (arg8.view.writes (Elt F) (harg8.unread xs0) (runB c i arg1 harg1 arg2 harg2 arg3 harg3 arg4 harg4 arg5 harg5 arg6 harg6 arg7 harg7 arg8 harg8 arg9 harg9 hA hB hC n hl x1 x2 x3 x4 x5 x6 xs0 xs1 x7).1) = xs0 :=
  harg8.read_unread xs0

/-- the second scratch reads the point's payload on the 400 rows from `400 n`, -/
theorem runB_sc1_in (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : ¬condA i) (hB : condB i) (hC : ¬condC i) (n : ℕ) (hl : k0_off1 i = ![400 * n, 0]) (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32)
    (j : S10000x256.Idx) (x : S400x256.Idx) (h0 : (j 0).val = 400 * n + (x 0).val) (h1 : (j 1).val = (x 1).val) :
    arg9.view.read (Elt F) (arg9.view.writes (Elt F) (harg9.unread xs1) (runB c i arg1 harg1 arg2 harg2 arg3 harg3 arg4 harg4 arg5 harg5 arg6 harg6 arg7 harg7 arg8 harg8 arg9 harg9 hA hB hC n hl x1 x2 x3 x4 x5 x6 xs0 xs1 x7).2.1) j
      = payB x1 xs0 x3 x4 x5 x := by
  unfold runB payB; dsimp only
  simp only [View.readAt_eq_ld, Memref.IsWhole.read_unread]
  exact View.read_writes_cons_unit_of_mem _ _ _ _ [] j x hl (fun a => by
    match a with
    | ⟨0, _⟩ => exact h0
    | ⟨1, _⟩ => show (j 1).val = 0 + (x 1).val; omega)

/-- and what it held on every other row. -/
theorem runB_sc1_out (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : ¬condA i) (hB : condB i) (hC : ¬condC i) (n : ℕ) (hl : k0_off1 i = ![400 * n, 0]) (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (x7 : Vec F S400x256 .f32)
    (j : S10000x256.Idx) (h : (j 0).val < 400 * n ∨ 400 * n + 400 ≤ (j 0).val) :
    arg9.view.read (Elt F) (arg9.view.writes (Elt F) (harg9.unread xs1) (runB c i arg1 harg1 arg2 harg2 arg3 harg3 arg4 harg4 arg5 harg5 arg6 harg6 arg7 harg7 arg8 harg8 arg9 harg9 hA hB hC n hl x1 x2 x3 x4 x5 x6 xs0 xs1 x7).2.1) j
      = xs1 j := by
  unfold runB; dsimp only
  refine Eq.trans (View.read_writes_cons_unit_of_not_mem _ _ _ _ [] j hl 0 ?_) ?_
  · exact h
  · exact congrFun (harg9.read_unread xs1) j

/-- After a second-pass point the output block reads the point's payload, whatever it held. -/
theorem runC_out (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (arg9 : Memref sig .tc .vmem S10000x256 .bf16) (harg9 : arg9.IsWhole)
    (hA : ¬condA i) (hB : ¬condB i) (hC : condC i) (x1 : Vec F S400x10000 .f32) (x2 : Vec F S10000x256 .f32) (x3 : Vec F S256x256 .bf16) (x4 : Vec F S1x256 .f32) (x5 : Vec F S256x256 .bf16) (x6 : Vec F S1x256 .f32) (xs0 : Vec F S10000x256 .bf16) (xs1 : Vec F S10000x256 .bf16) (f : arg7.view.ty.Contents (Elt F)) :
    arg7.view.read (Elt F) (arg7.view.writes (Elt F) f (runC c i arg1 harg1 arg2 harg2 arg3 harg3 arg4 harg4 arg5 harg5 arg6 harg6 arg7 harg7 arg8 harg8 arg9 harg9 hA hB hC x1 x2 x3 x4 x5 x6 xs0 xs1).1) = payC x1 xs1 x6 := by
  unfold runC payC; dsimp only
  simp only [View.readAt_eq_ld, Memref.IsWhole.read_unread]
  exact read_writes_whole (S := S400x256) _ _ (by funext a; match a with | ⟨0, _⟩ => rfl | ⟨1, _⟩ => rfl) inb_S400x256_S400x256_0_0 _

end Cert.KernelIdeal.Hand
end
-- ==== Proof.KiBody.lean ====
import proofs.«123976_g54683523612746_cont_9to1_m_282_10_alg».proof.Proof.KiRuns

/-!
The frame of the kernel: it runs to the end, faults nowhere and leaves its argument arrays unchanged — and, on the
way, what its output blocks hold.

The kernel keeps two arrays between grid points: the cast features (written at the first point) and, filled 400 rows
per point over points 1 to 25, the array `S = relu ((A · X) · W0 + b0) · W1`, which points 26 to 50 read whole. The
invariant carried from point to point is relational: before point `n` the first array holds the cast features once
`n ≥ 1`, and the second holds SOME contents that agree with `S` (`S1spec`) on the rows below `400 (n - 1)`. From
point 26 on that is all of it, so each output block is a function of the argument arrays alone (`outSpec`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The buffers the body is called with -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x256 .f32 := win0_6.stage (cfg0.slots t 6)
abbrev hs6 (t : Fin cfg0.N) : (ms6 t).IsWhole := hstage0_6 ((cfg0.slots t 6).cast nbuf0_6)
/-- The two arrays the kernel keeps between points: whole scoped buffers of its own. -/
abbrev sc0 : Memref sig .tc .vmem S10000x256 .bf16 := Memref.whole cc0_scratch0
abbrev sc1 : Memref sig .tc .vmem S10000x256 .bf16 := Memref.whole cc0_scratch1

/-- What the launch hands the region besides the windows: the two kept arrays at some contents, and the generator
    register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## Where the windows are idle -/

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun _ => rfl
theorem liveAt3 : ∀ t : Fin cfg0.N, cfg0.idle 3 (grid0.coords t) = false := fun _ => rfl
theorem liveAt4 : ∀ t : Fin cfg0.N, cfg0.idle 4 (grid0.coords t) = false := fun _ => rfl
theorem liveAt5 : ∀ t : Fin cfg0.N, cfg0.idle 5 (grid0.coords t) = false := fun _ => rfl
/-- The output window is stored at the points of the second pass, -/
theorem liveAt6 : ∀ t : Fin cfg0.N, condC (grid0.coords t) → cfg0.idle 6 (grid0.coords t) = false :=
  (by decide +kernel : ∀ t : Fin grid0.N, condC (grid0.coords t) → cfg0.idle 6 (grid0.coords t) = false)
/-- idle before it, -/
theorem idleAt6 : ∀ t : Fin cfg0.N, ¬condC (grid0.coords t) → cfg0.idle 6 (grid0.coords t) = true :=
  (by decide +kernel : ∀ t : Fin grid0.N, ¬condC (grid0.coords t) → cfg0.idle 6 (grid0.coords t) = true)
/-- and not written back there: its block index stays at the last block until the second pass starts. -/
theorem noFlush6 : ∀ t : Fin cfg0.N, ¬condC (grid0.coords t) → (cfg0.win 6).flush t = false :=
  (by decide +kernel : ∀ t : Fin grid0.N, ¬condC (grid0.coords t) → win0_6.flush t = false)

/-! ## What the kept arrays and the output blocks hold -/

/-- The first point of the grid. -/
abbrev t0 : Fin cfg0.N := ⟨0, by decide⟩

/-- The cast features. -/
def x16 (c : Dev nD) : Vec F S10000x256 .bf16 := payA (iblk m c 1 t0)

/-- The 400 rows of `S` that point `t` of the first pass computes. -/
def keptAt (c : Dev nD) (t : Fin cfg0.N) : Vec F S400x256 .bf16 :=
  payB (iblk m c 0 t) (x16 m c) (iblk m c 2 t) (iblk m c 3 t) (iblk m c 4 t)

/-- `S`: row `r` is row `r % 400` of what point `r / 400 + 1` computes. -/
def S1spec (c : Dev nD) : Vec F S10000x256 .bf16 := fun j =>
  keptAt m c ⟨(j 0).val / 400 + 1, by rw [show cfg0.N = 51 from N_0]; have := idx2_lt0 j; omega⟩
    (ix2 (⟨(j 0).val % 400, Nat.mod_lt _ (by norm_num)⟩ : Fin 400) (j 1 : Fin 256))

/-- `S` on the rows point `t` of the first pass stores. -/
theorem S1spec_at (c : Dev nD) (t : Fin cfg0.N) (h1 : 1 ≤ t.val) (h25 : t.val ≤ 25) (j : S10000x256.Idx) (x : S400x256.Idx)
    (h0 : (j 0).val = 400 * (t.val - 1) + (x 0).val) (hc : (j 1).val = (x 1).val) :
    S1spec m c j = keptAt m c t x := by
  have hx0 : (x 0).val < 400 := idx2_lt0 x
  have ht : (⟨(j 0).val / 400 + 1, by rw [show cfg0.N = 51 from N_0]; have := idx2_lt0 j; omega⟩ : Fin cfg0.N) = t :=
    Fin.ext (by show (j 0).val / 400 + 1 = t.val; omega)
  have hx : ix2 (⟨(j 0).val % 400, Nat.mod_lt _ (by norm_num)⟩ : Fin 400) (j 1 : Fin 256) = x := by
    funext a
    match a with
    | ⟨0, _⟩ => exact Fin.ext (by show (j 0).val % 400 = (x 0).val; omega)
    | ⟨1, _⟩ => exact Fin.ext hc
  unfold S1spec
  rw [ht]
  exact congrArg (keptAt m c t) hx

/-- What the kept arrays hold before point `n`. -/
def Inv (c : Dev nD) (n : ℕ) (xs0 xs1 : Vec F S10000x256 .bf16) : Prop :=
  (1 ≤ n → xs0 = x16 m c) ∧ ∀ j : S10000x256.Idx, (j 0).val + 400 < 400 * n → xs1 j = S1spec m c j

/-- The invariant before point `n`: the two kept arrays at some contents satisfying `Inv`, and the generator
    register at some state. -/
def PhiS (c : Dev nD) (n : ℕ) : sProp 𝕄 :=
  iprop(∃ xs0 xs1, ⌜Inv m c n xs0 xs1⌝ ∗ owns (c : Thread nD τ) sc0 fullShare xs0 ∗ owns (c : Thread nD τ) sc1 fullShare xs1 ∗ (∃ r, prngReg c r))

/-- The output block a point of the second pass leaves. -/
def outSpec (c : Dev nD) (t : Fin cfg0.N) : Vec F S400x256 .f32 := payC (iblk m c 0 t) (S1spec m c) (iblk m c 5 t)

/-! ## The proof data -/

/-- The arrays as the region finds them; each input's buffer at its block after the body, the output's at `outSpec`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outSpec m c t
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outSpec m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
/-- The body at any point. Which of the three cases the point is in is decided by its position; the invariant hands
    the body the two kept arrays at contents satisfying `Inv` and takes them back at what the case leaves, which
    satisfies `Inv` at the next point: the first point establishes the cast features; a first-pass point adds its 400
    rows of `S`; a second-pass point changes neither, and its output block is `outSpec` because by then the second
    array is `S` on every row. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, PhiS_castSucc m c t]
  unfold PhiS
  have hN : t.val < 51 := lt_of_lt_of_eq t.isLt (show cfg0.N = 51 from N_0)
  rw [show (dats m 0 c).leavesExact 0 t = owns (c : Thread nD τ) (ms0 t) fullShare ((dats m 0 c).after 0 t) from by
      unfold Dat.leavesExact; rw [liveAt0 t], after0_0]
  rw [show (dats m 0 c).leavesExact 1 t = owns (c : Thread nD τ) (ms1 t) fullShare ((dats m 0 c).after 1 t) from by
      unfold Dat.leavesExact; rw [liveAt1 t], after0_1]
  rw [show (dats m 0 c).leavesExact 2 t = owns (c : Thread nD τ) (ms2 t) fullShare ((dats m 0 c).after 2 t) from by
      unfold Dat.leavesExact; rw [liveAt2 t], after0_2]
  rw [show (dats m 0 c).leavesExact 3 t = owns (c : Thread nD τ) (ms3 t) fullShare ((dats m 0 c).after 3 t) from by
      unfold Dat.leavesExact; rw [liveAt3 t], after0_3]
  rw [show (dats m 0 c).leavesExact 4 t = owns (c : Thread nD τ) (ms4 t) fullShare ((dats m 0 c).after 4 t) from by
      unfold Dat.leavesExact; rw [liveAt4 t], after0_4]
  rw [show (dats m 0 c).leavesExact 5 t = owns (c : Thread nD τ) (ms5 t) fullShare ((dats m 0 c).after 5 t) from by
      unfold Dat.leavesExact; rw [liveAt5 t], after0_5]
  by_cases h26 : 26 ≤ t.val
  · -- the second pass
    have cA : ¬condA (grid0.coords t) := fun h => by have := (hcondA t).mp h; omega
    have cB : ¬condB (grid0.coords t) := fun h => by have := (hcondB t).mp h; omega
    have cC : condC (grid0.coords t) := (hcondC t).mpr h26
    rw [show (dats m 0 c).leavesExact 6 t = owns (c : Thread nD τ) (ms6 t) fullShare ((dats m 0 c).after 6 t) from by
      unfold Dat.leavesExact; rw [liveAt6 t cC], after0_6]
    iintro ⟨⟨%xs0, %xs1, %hI, HS0, HS1, Hg⟩, Ho, ⟨%d0, H0⟩, ⟨%d1, H1⟩, ⟨%d2, H2⟩, ⟨%d3, H3⟩, ⟨%d4, H4⟩, ⟨%d5, H5⟩, ⟨%d6, H6⟩⟩
    iapply ((runC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) cA cB cC (iblk m c 0 t) (iblk m c 1 t) (iblk m c 2 t) (iblk m c 3 t) (iblk m c 4 t) (iblk m c 5 t) xs0 xs1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f7, H7⟩, HS0, HS1⟩
    isplitl [HS0 HS1 Hg]
    · iexists xs0, xs1
      isplitr
      · ipureintro
        exact ⟨fun _ => hI.1 (by omega), fun j _ => hI.2 j (by have := idx2_lt0 j; omega)⟩
      isplitl [HS0]
      · unfold owns; iexists _; isplitr; swap; · iexact HS0
        ipureintro; exact (Memref.isWhole_whole _).read_unread _
      isplitl [HS1]
      · unfold owns; iexists _; isplitr; swap; · iexact HS1
        ipureintro; exact (Memref.isWhole_whole _).read_unread _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; · iexact H7
    ipureintro
    rw [runC_out]
    have hS : xs1 = S1spec m c := funext fun j => hI.2 j (by have := idx2_lt0 j; omega)
    rw [hS]; rfl
  · have cC : ¬condC (grid0.coords t) := fun h => h26 ((hcondC t).mp h)
    rw [Dat.leavesExact_idle (dats m 0 c) 6 t (idleAt6 t cC) (noFlush6 t cC)]
    by_cases h0 : t.val = 0
    · -- the first point
      have cA : condA (grid0.coords t) := (hcondA t).mpr h0
      have cB : ¬condB (grid0.coords t) := fun h => by have := (hcondB t).mp h; omega
      have ht0 : t = t0 := Fin.ext h0
      iintro ⟨⟨%xs0, %xs1, %hI, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) cA cB cC (iblk m c 0 t) (iblk m c 1 t) (iblk m c 2 t) (iblk m c 3 t) (iblk m c 4 t) (iblk m c 5 t) xs0 xs1 ((dats m 0 c).before 6 t d6)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · iexists payA (iblk m c 1 t), xs1
        isplitr
        · ipureintro
          refine ⟨fun _ => ?_, fun j hj => ?_⟩
          · rw [ht0]; rfl
          · exact absurd hj (by omega)
        isplitl [HS0]
        · unfold owns; iexists _; isplitr; swap; · iexact HS0
          ipureintro; apply runA_sc0
        isplitl [HS1]
        · unfold owns; iexists _; isplitr; swap; · iexact HS1
          ipureintro; apply runA_sc1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- the first pass
      have h1 : 1 ≤ t.val := by omega
      have h25 : t.val ≤ 25 := by omega
      have cA : ¬condA (grid0.coords t) := fun h => h0 ((hcondA t).mp h)
      have cB : condB (grid0.coords t) := (hcondB t).mpr ⟨h1, h25⟩
      iintro ⟨⟨%xs0, %xs1, %hI, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) cA cB cC (t.val - 1) (hoffB t h1 h25) (iblk m c 0 t) (iblk m c 1 t) (iblk m c 2 t) (iblk m c 3 t) (iblk m c 4 t) (iblk m c 5 t) xs0 xs1 ((dats m 0 c).before 6 t d6)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      have hx0 : xs0 = x16 m c := hI.1 h1
      isplitl [HS0 HS1 Hg]
      · iexists xs0, _
        isplitr; swap
        · isplitl [HS0]
          · unfold owns; iexists _; isplitr; swap; · iexact HS0
            ipureintro; apply runB_sc0
          isplitl [HS1]
          · unfold owns; iexists _; isplitr; swap; · iexact HS1
            ipureintro; rfl
          iexact Hg
        · ipureintro
          refine ⟨fun _ => hx0, fun j hj => ?_⟩
          have hj0 : (j 0).val < 10000 := idx2_lt0 j
          by_cases hin : 400 * (t.val - 1) ≤ (j 0).val
          · have hlt : (j 0).val - 400 * (t.val - 1) < 400 := by omega
            have e := runB_sc1_in c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) cA cB cC (t.val - 1) (hoffB t h1 h25) (iblk m c 0 t) (iblk m c 1 t) (iblk m c 2 t) (iblk m c 3 t) (iblk m c 4 t) (iblk m c 5 t) xs0 xs1 ((dats m 0 c).before 6 t d6)
              j (ix2 (⟨(j 0).val - 400 * (t.val - 1), hlt⟩ : Fin 400) (j 1 : Fin 256)) (by show (j 0).val = 400 * (t.val - 1) + ((j 0).val - 400 * (t.val - 1)); omega) rfl
            refine e.trans ?_
            rw [hx0]
            exact (S1spec_at m c t h1 h25 j _ (by show (j 0).val = 400 * (t.val - 1) + ((j 0).val - 400 * (t.val - 1)); omega) rfl).symm
          · have e := runB_sc1_out c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) cA cB cC (t.val - 1) (hoffB t h1 h25) (iblk m c 0 t) (iblk m c 1 t) (iblk m c 2 t) (iblk m c 3 t) (iblk m c 4 t) (iblk m c 5 t) xs0 xs1 ((dats m 0 c).before 6 t d6)
              j (Or.inl (by omega))
            exact e.trans (hI.2 j (by omega))
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is claimed of the kept arrays yet. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%d0, HS0⟩, ⟨%d1, HS1⟩⟩, Hg⟩
  iexists d0, d1
  isplitr
  · ipureintro; exact ⟨fun h => absurd h (by omega), fun j hj => absurd hj (by omega)⟩
  isplitl [HS0]; · iexact HS0
  isplitl [HS1]; · iexact HS1
  iexact Hg

/-- After the last point the invariant gives it back: what the kept arrays hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨%xs0, %xs1, -, HS0, HS1, Hg⟩
  isplitl [HS0 HS1]
  · isplitl [HS0]; · iexists _; iexact HS0
    iexists _; iexact HS1
  iexact Hg

/-! ## The run and the frame -/

set_option backward.isDefEq.respectTransparency.types false in
/-- Every weakly fair execution of @main terminates, and in every final state each array of the pipeline holds what
    the proof data compute and every other unscoped buffer what the region found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand
end
-- ==== Proof.Spec.lean ====
import Idealize.ShloMosaic.PureOps.Ideal
import Idealize.ShloMosaic.Lib.ValueIdx

/-!
A two-layer graph convolution on the extended reals, in the two arrangements this certificate compares.

With `A` the dense adjacency (10000 × 10000), `X` the features (10000 × 256), `W0`, `W1` the weights (256 × 256) and
`b0`, `b1` the biases (256):

* `ref`: `A · (relu (A · (X · W0) + b0) · W1) + b1`, every sum over its whole index range;
* `ker`: `A · (relu ((A · X) · W0 + b0) · W1) + b1`, the first product reassociated, and every sum over the 10000
  neighbours taken as the sum over the first 5000 plus the sum over the last 5000.

The two agree wherever all six arrays are real-valued: reassociating a product of matrices needs a factor moved across a
finite sum, which holds on the reals and fails at the infinities.
-/

noncomputable section

open scoped BigOperators

namespace Cert.Spec

open Idealize.ShloMosaic Idealize.ShloMosaic.ValueIdx

/-- features and hidden layers: 10000 nodes by 256 channels -/
abbrev SX : Shape := ⟨2, ![10000, 256]⟩
/-- the adjacency: 10000 by 10000 -/
abbrev SA : Shape := ⟨2, ![10000, 10000]⟩
/-- a weight matrix: 256 by 256 -/
abbrev SW : Shape := ⟨2, ![256, 256]⟩
/-- a bias vector: 256 -/
abbrev Sb : Shape := ⟨1, ![256]⟩

/-- neighbour `k` of the first half -/
abbrev lo (k : Fin 5000) : Fin 10000 := ⟨k.val, by have := k.isLt; omega⟩
/-- neighbour `5000 + k` of the second half -/
abbrev hi (k : Fin 5000) : Fin 10000 := ⟨5000 + k.val, by have := k.isLt; omega⟩

/-- a sum over the 10000 neighbours taken half by half -/
def halves (f : Fin 10000 → EReal) : EReal := (∑ k : Fin 5000, f (lo k)) + ∑ k : Fin 5000, f (hi k)

variable (X : SX.Idx → EReal) (A : SA.Idx → EReal) (W0 : SW.Idx → EReal) (b0 : Sb.Idx → EReal)
  (W1 : SW.Idx → EReal) (b1 : Sb.Idx → EReal)

/-! ## The reference's arrangement -/

/-- `X · W0` at node `p`, channel `u` -/
def support0 (p : Fin 10000) (u : Fin 256) : EReal := ∑ v : Fin 256, X (ix2 p v) * W0 (ix2 v u)
/-- `relu (A · (X · W0) + b0)` -/
def hidden (p : Fin 10000) (u : Fin 256) : EReal :=
  max ((∑ k : Fin 10000, A (ix2 p k) * support0 X W0 k u) + b0 (ix1 u)) 0
/-- `hidden · W1` -/
def support1 (p : Fin 10000) (q : Fin 256) : EReal := ∑ u : Fin 256, hidden X A W0 b0 p u * W1 (ix2 u q)
/-- the reference's result -/
def ref (i : SX.Idx) : EReal := (∑ k : Fin 10000, A (ix2 (i 0) k) * support1 X A W0 b0 W1 k (i 1)) + b1 (ix1 (i 1))

/-! ## The kernel's arrangement -/

/-- `A · X` at node `p`, channel `v`, half by half -/
def aggregated (p : Fin 10000) (v : Fin 256) : EReal := halves fun k => A (ix2 p k) * X (ix2 k v)
/-- `relu ((A · X) · W0 + b0)` -/
def hiddenK (p : Fin 10000) (u : Fin 256) : EReal :=
  max ((∑ v : Fin 256, aggregated X A p v * W0 (ix2 v u)) + b0 (ix1 u)) 0
/-- `hiddenK · W1`: what the kernel keeps between its two passes -/
def kept (p : Fin 10000) (q : Fin 256) : EReal := ∑ u : Fin 256, hiddenK X A W0 b0 p u * W1 (ix2 u q)
/-- the kernel's result -/
def ker (i : SX.Idx) : EReal := (halves fun k => A (ix2 (i 0) k) * kept X A W0 b0 W1 k (i 1)) + b1 (ix1 (i 1))

/-- every entry of an array is a real number -/
def RealValued {S : Shape} (Y : S.Idx → EReal) : Prop := ∀ j, ∃ r : ℝ, Y j = (r : EReal)

end Cert.Spec

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«123976_g54683523612746_cont_9to1_m_282_10_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.KiPay.lean ====
import proofs.«123976_g54683523612746_cont_9to1_m_282_10_alg».proof.Proof.KiRuns
import proofs.«123976_g54683523612746_cont_9to1_m_282_10_alg».proof.Proof.Spec
import proofs.«123976_g54683523612746_cont_9to1_m_282_10_alg».proof.Proof.LibMatmul2D
import Idealize.ShloMosaic.Lib.ValueIdx
import Idealize.ShloMosaic.Lib.ValueLayout
import Idealize.ShloMosaic.PureOps.Ideal.Laws

/-!
The kernel body's three payloads, read at an index on the extended reals, over plain arrays.

* the first point's payload is the features themselves (a change of format is the identity);
* a second-pass point's payload at row `p`, channel `q` is the adjacency row against the kept array's column, the sum
  over the 10000 neighbours taken as its first half plus its second half, plus the bias;
* a first-pass point's payload is `relu ((A · X) · W0 + b0) · W1` at that entry, the neighbour sum again half by half.

Each matrix product is the sum over its contracted axis; a load through a rectangle reads the array at the rectangle's
offset plus the coordinate, which for the two column halves of the adjacency block and the two row halves of a scratch
array are the neighbours `lo k` and `hi k`.
-/

noncomputable section

open scoped BigOperators

namespace Cert.KernelIdeal.HandValue

open Cert.KernelIdeal Cert.KernelIdeal.Gen Cert.KernelIdeal.Hand Idealize.ShloMosaic Idealize.ShloMosaic.ValueIdx

/-! ## The rectangles' indices by coordinates -/

/-- the first column half of an adjacency block: column `k` is neighbour `lo k` -/
theorem idxA0 (p : Fin 400) (k : Fin 5000) : rA0.idx (ix2 p k) = ix2 p (Cert.Spec.lo k) :=
  funext fun a => Fin.ext (by
    match a with
    | ⟨0, _⟩ => show 0 + 1 * p.val = p.val; omega
    | ⟨1, _⟩ => show 0 + 1 * k.val = k.val; omega)
/-- the second column half: column `k` is neighbour `hi k` -/
theorem idxA1 (p : Fin 400) (k : Fin 5000) : rA1.idx (ix2 p k) = ix2 p (Cert.Spec.hi k) :=
  funext fun a => Fin.ext (by
    match a with
    | ⟨0, _⟩ => show 0 + 1 * p.val = p.val; omega
    | ⟨1, _⟩ => show 5000 + 1 * k.val = 5000 + k.val; omega)
/-- the first row half of a scratch array: row `k` is node `lo k` -/
theorem idxS0 (k : Fin 5000) (q : Fin 256) : rS0.idx (ix2 k q) = ix2 (Cert.Spec.lo k) q :=
  funext fun a => Fin.ext (by
    match a with
    | ⟨0, _⟩ => show 0 + 1 * k.val = k.val; omega
    | ⟨1, _⟩ => show 0 + 1 * q.val = q.val; omega)
/-- the second row half: row `k` is node `hi k` -/
theorem idxS1 (k : Fin 5000) (q : Fin 256) : rS1.idx (ix2 k q) = ix2 (Cert.Spec.hi k) q :=
  funext fun a => Fin.ext (by
    match a with
    | ⟨0, _⟩ => show 5000 + 1 * k.val = 5000 + k.val; omega
    | ⟨1, _⟩ => show 0 + 1 * q.val = q.val; omega)

/-- a load of a whole weight matrix reads it -/
theorem ld_rW {e : EltTy} (x : S256x256.Idx → Elt Ideal e) : View.ld x rW = x :=
  View.ld_unit_zero (S := S256x256) (by funext a; match a with | ⟨0, _⟩ => rfl | ⟨1, _⟩ => rfl) _ x
/-- a load of a whole bias row reads it -/
theorem ld_rb {e : EltTy} (x : S1x256.Idx → Elt Ideal e) : View.ld x rb = x :=
  View.ld_unit_zero (S := S1x256) (by funext a; match a with | ⟨0, _⟩ => rfl | ⟨1, _⟩ => rfl) _ x
/-- a load of the whole features reads them -/
theorem ld_rX {e : EltTy} (x : S10000x256.Idx → Elt Ideal e) : View.ld x rX = x :=
  View.ld_unit_zero (S := S10000x256) (by funext a; match a with | ⟨0, _⟩ => rfl | ⟨1, _⟩ => rfl) _ x

/-! ## The matrix products at an entry -/

/-- a `[400, 5000] x [5000, 256]` product into the zero accumulator, at an entry -/
theorem mm_half (lhs : FVec Ideal S400x5000 .bf16) (rhs : FVec Ideal S5000x256 .bf16) (p : Fin 400) (q : Fin 256) :
    matmul dot_S400x5000_S5000x256_S400x256_1_0_0_1_n_n none lhs rhs (constant S400x256 .f32 0x00000000#32) (ix2 p q)
      = ∑ k : Fin 5000, lhs (ix2 p k) * rhs (ix2 k q) := by
  unfold dot_S400x5000_S5000x256_S400x256_1_0_0_1_n_n
  exact Cert.LibMatmul2D.rows_cols _ none lhs rhs p q

/-- a `[400, 256] x [256, 256]` product into the zero accumulator, at an entry -/
theorem mm_w (lhs : FVec Ideal S400x256 .bf16) (rhs : FVec Ideal S256x256 .bf16) (p : Fin 400) (q : Fin 256) :
    matmul dot_S400x256_S256x256_S400x256_1_0_0_1_n_n none lhs rhs (constant S400x256 .f32 0x00000000#32) (ix2 p q)
      = ∑ k : Fin 256, lhs (ix2 p k) * rhs (ix2 k q) := by
  unfold dot_S400x256_S256x256_S400x256_1_0_0_1_n_n
  exact Cert.LibMatmul2D.rows_cols _ none lhs rhs p q

/-- the two half products of an adjacency block against a scratch array add up to the neighbour sum half by half -/
theorem agg_apply (h : FTy.bits .bf16 < FTy.bits .f32) (x1 : Vec Ideal S400x10000 .f32) (xs : Vec Ideal S10000x256 .bf16)
    (p : Fin 400) (q : Fin 256) :
    addf (F := Ideal)
        (matmul (φ₁ := .bf16) (φ₂ := .bf16) dot_S400x5000_S5000x256_S400x256_1_0_0_1_n_n none
          (truncf (s := S400x5000) .bf16 (View.ld x1 rA0) h) (View.ld xs rS0) (constant S400x256 .f32 0x00000000#32))
        (matmul (φ₁ := .bf16) (φ₂ := .bf16) dot_S400x5000_S5000x256_S400x256_1_0_0_1_n_n none
          (truncf (s := S400x5000) .bf16 (View.ld x1 rA1) h) (View.ld xs rS1) (constant S400x256 .f32 0x00000000#32))
        (ix2 p q)
      = Cert.Spec.halves (fun k => x1 (ix2 p k) * xs (ix2 k q)) := by
  rw [addf_apply, mm_half, mm_half]
  unfold Cert.Spec.halves
  congr 1
  · refine Finset.sum_congr rfl fun k _ => ?_
    show x1 (rA0.idx (ix2 p k)) * xs (rS0.idx (ix2 k q)) = _
    rw [idxA0, idxS0]
  · refine Finset.sum_congr rfl fun k _ => ?_
    show x1 (rA1.idx (ix2 p k)) * xs (rS1.idx (ix2 k q)) = _
    rw [idxA1, idxS1]

/-- a bias row, broadcast over the 400 rows, at an entry -/
theorem bias_apply (hs : S1x256.ShapeCasts S1x256) (hb : S1x256.Broadcasts S400x256) (x : Vec Ideal S1x256 .f32)
    (p : Fin 400) (q : Fin 256) :
    broadcastTo (s := S1x256) S400x256 (shapeCast (s := S1x256) S1x256 (View.ld x rb) hs) hb (ix2 p q)
      = x (ix2 (0 : Fin 1) q) := by
  rw [broadcastTo_1b_ab_apply]
  exact (congrFun (shapeCast_self (s := S1x256) (View.ld x rb) hs) _).trans (congrFun (ld_rb x) _)

/-- a whole weight matrix, loaded, at an entry -/
theorem w_apply (hs : S256x256.ShapeCasts S256x256) (x : Vec Ideal S256x256 .bf16) (j : S256x256.Idx) :
    shapeCast (s := S256x256) S256x256 (View.ld x rW) hs j = x j :=
  (congrFun (shapeCast_self (s := S256x256) (View.ld x rW) hs) j).trans (congrFun (ld_rW x) j)

/-! ## The payloads -/

/-- the first point's payload: the features -/
theorem payA_apply (x2 : Vec Ideal S10000x256 .f32) (j : S10000x256.Idx) : payA (F := Ideal) x2 j = x2 j := by
  unfold payA k0_pay1
  exact (congrFun (shapeCast_self (s := S10000x256) _ _) j).trans (congrFun (ld_rX x2) j)

/-- a second-pass point's payload at an entry -/
theorem payC_apply (x1 : Vec Ideal S400x10000 .f32) (xs1 : Vec Ideal S10000x256 .bf16) (x6 : Vec Ideal S1x256 .f32)
    (p : Fin 400) (q : Fin 256) :
    payC (F := Ideal) x1 xs1 x6 (ix2 p q)
      = Cert.Spec.halves (fun k => x1 (ix2 p k) * xs1 (ix2 k q)) + x6 (ix2 (0 : Fin 1) q) := by
  unfold payC k0_pay3
  rw [addf_apply, agg_apply, bias_apply]

/-- a first-pass point's payload at an entry -/
theorem payB_apply (x1 : Vec Ideal S400x10000 .f32) (xs0 : Vec Ideal S10000x256 .bf16) (x3 : Vec Ideal S256x256 .bf16)
    (x4 : Vec Ideal S1x256 .f32) (x5 : Vec Ideal S256x256 .bf16) (p : Fin 400) (q : Fin 256) :
    payB (F := Ideal) x1 xs0 x3 x4 x5 (ix2 p q)
      = ∑ u : Fin 256, max ((∑ v : Fin 256, Cert.Spec.halves (fun k => x1 (ix2 p k) * xs0 (ix2 k v)) * x3 (ix2 v u))
          + x4 (ix2 (0 : Fin 1) u)) 0 * x5 (ix2 u q) := by
  unfold payB k0_pay2
  refine (congrFun (shapeCast_self (s := S400x256) _ _) (ix2 p q)).trans ?_
  rw [truncf_apply, mm_w]
  refine Finset.sum_congr rfl fun u _ => ?_
  rw [truncf_apply, maximumf_apply, addf_apply, bias_apply, broadcast_apply, mm_w, w_apply]
  simp only [truncf_apply, agg_apply, Ideal.ofBits_def, Ideal.ofBits_zero_f32]
  refine congrArg (fun t => max (t + x4 (ix2 (0 : Fin 1) u)) 0 * x5 (ix2 u q)) (Finset.sum_congr rfl fun v _ => ?_)
  rw [w_apply]

end Cert.KernelIdeal.HandValue

end
-- ==== Proof.KiValue.lean ====
import proofs.«123976_g54683523612746_cont_9to1_m_282_10_alg».proof.Proof.KiBody
import proofs.«123976_g54683523612746_cont_9to1_m_282_10_alg».proof.Proof.KiPay
import proofs.«123976_g54683523612746_cont_9to1_m_282_10_alg».proof.Proof.Spec
import Idealize.ShloMosaic.Lib.Pipeline.Value
import Idealize.ShloMosaic.Lib.ValueLayout
import Idealize.ShloMosaic.Lib.StableHlo.Run
import Idealize.ShloMosaic.Lib.Tactic

/-!
What the idealized kernel's result array holds: the kernel's arrangement of the two-layer graph convolution
(`Cert.Spec.ker`) of the six argument arrays, index by index.

Each adjacency block is 400 consecutive rows of the adjacency; the features, weights and biases are staged whole (the
weights cast and the biases viewed as rows by the host, which changes no value at the ideal instance). So the 400
rows of `S` a first-pass point computes are `Spec.kept` on those rows, the output block a second-pass point computes
is `Spec.ker` on its rows, and the 25 output blocks written back at points 26 to 50 tile the result array.
-/

set_option maxRecDepth 16384

noncomputable section

open scoped BigOperators
open Idealize.ShloMosaic Idealize.ShloMosaic.TcCoe Idealize.SL.Sem
open Idealize.ShloMosaic.Pipeline (Dat)

namespace Cert.KernelIdeal.HandValue

open Cert.KernelIdeal Cert.KernelIdeal.Gen Cert.KernelIdeal.Hand Idealize.ShloMosaic.ValueIdx

variable (m : (ℓ : Loc nD τ sig) → Buf (Elt Ideal) ℓ) (ρ : Dev nD → PrngReg)

/-! ## The argument arrays as plain functions -/

abbrev aX (c : Dev nD) : Cert.Spec.SX.Idx → EReal := m ((c : Thread nD τ).loc main_arg0)
abbrev aA (c : Dev nD) : Cert.Spec.SA.Idx → EReal := m ((c : Thread nD τ).loc main_arg1)
abbrev aW0 (c : Dev nD) : Cert.Spec.SW.Idx → EReal := m ((c : Thread nD τ).loc main_arg2)
abbrev ab0 (c : Dev nD) : Cert.Spec.Sb.Idx → EReal := m ((c : Thread nD τ).loc main_arg3)
abbrev aW1 (c : Dev nD) : Cert.Spec.SW.Idx → EReal := m ((c : Thread nD τ).loc main_arg4)
abbrev ab1 (c : Dev nD) : Cert.Spec.Sb.Idx → EReal := m ((c : Thread nD τ).loc main_arg5)

/-- The result: the kernel's arrangement of the convolution of the argument arrays. -/
def G (c : Dev nD) : Buf (Elt Ideal) ((c : Thread nD τ).loc main_v4) :=
  Cert.Spec.ker (aX m c) (aA m c) (aW0 m c) (ab0 m c) (aW1 m c) (ab1 m c)

/-! ## What the host wrote before the region: casts and row views, no value changed -/

theorem V_v0 (c : Dev nD) (i : S256x256.Idx) : (V m c main_v0 : S256x256.Idx → EReal) i = aW0 m c i := by
  have e : V m c main_v0 = (fun j => (m ((c : Thread nD τ).loc main_arg2) : S256x256.Idx → EReal) j) := by
    dsimp only [V, hostOps0]; after_results; rfl
  rw [e]
theorem V_v2 (c : Dev nD) (i : S256x256.Idx) : (V m c main_v2 : S256x256.Idx → EReal) i = aW1 m c i := by
  have e : V m c main_v2 = (fun j => (m ((c : Thread nD τ).loc main_arg4) : S256x256.Idx → EReal) j) := by
    dsimp only [V, hostOps0]; after_results; rfl
  rw [e]
theorem V_v1 (c : Dev nD) (u : Fin 256) : (V m c main_v1 : S1x256.Idx → EReal) (ix2 (0 : Fin 1) u) = ab0 m c (ix1 u) := by
  have e : V m c main_v1 = (fun j => shapeCast S1x256 (m ((c : Thread nD τ).loc main_arg3) : S256.Idx → EReal) shapeCasts_S256_S1x256 j) := by
    dsimp only [V, hostOps0]; after_results; rfl
  rw [e]; exact shapeCast_a_1a_apply _ _ (0 : Fin 1) u
theorem V_v3 (c : Dev nD) (u : Fin 256) : (V m c main_v3 : S1x256.Idx → EReal) (ix2 (0 : Fin 1) u) = ab1 m c (ix1 u) := by
  have e : V m c main_v3 = (fun j => shapeCast S1x256 (m ((c : Thread nD τ).loc main_arg5) : S256.Idx → EReal) shapeCasts_S256_S1x256 j) := by
    dsimp only [V, hostOps0]; after_results; rfl
  rw [e]; exact shapeCast_a_1a_apply _ _ (0 : Fin 1) u

/-! ## The index maps over the grid -/

theorem idx0_B : ∀ t : Fin cfg0.N, 1 ≤ t.val → t.val ≤ 25 → win0_0.index t 0 = t.val - 1 :=
  (by decide +kernel : ∀ t : Fin grid0.N, 1 ≤ t.val → t.val ≤ 25 → win0_0.index t 0 = t.val - 1)
theorem idx0_C : ∀ t : Fin cfg0.N, 26 ≤ t.val → win0_0.index t 0 = 50 - t.val :=
  (by decide +kernel : ∀ t : Fin grid0.N, 26 ≤ t.val → win0_0.index t 0 = 50 - t.val)
theorem idx0_1 : ∀ t : Fin cfg0.N, win0_0.index t 1 = 0 :=
  (by decide +kernel : ∀ t : Fin grid0.N, win0_0.index t 1 = 0)
theorem idx6_C : ∀ t : Fin cfg0.N, 26 ≤ t.val → win0_6.index t 0 = 50 - t.val :=
  (by decide +kernel : ∀ t : Fin grid0.N, 26 ≤ t.val → win0_6.index t 0 = 50 - t.val)
theorem idx6_1 : ∀ t : Fin cfg0.N, win0_6.index t 1 = 0 :=
  (by decide +kernel : ∀ t : Fin grid0.N, win0_6.index t 1 = 0)
theorem xsize6 : ∀ t : Fin cfg0.N, win0_6.xsize (grid0.coords t) 0 = 400 ∧ win0_6.xsize (grid0.coords t) 1 = 256 :=
  (by decide +kernel : ∀ t : Fin grid0.N, win0_6.xsize (grid0.coords t) 0 = 400 ∧ win0_6.xsize (grid0.coords t) 1 = 256)
/-- The output block is written back exactly at the points of the second pass. -/
theorem flush6 : ∀ t : Fin cfg0.N, (cfg0.win 6).flush t = true ↔ 26 ≤ t.val :=
  (by decide +kernel : ∀ t : Fin grid0.N, win0_6.flush t = true ↔ 26 ≤ t.val)
theorem idxW1 : ∀ t : Fin cfg0.N, win0_1.index t 0 = 0 ∧ win0_1.index t 1 = 0 :=
  (by decide +kernel : ∀ t : Fin grid0.N, win0_1.index t 0 = 0 ∧ win0_1.index t 1 = 0)
theorem idxW2 : ∀ t : Fin cfg0.N, win0_2.index t 0 = 0 ∧ win0_2.index t 1 = 0 :=
  (by decide +kernel : ∀ t : Fin grid0.N, win0_2.index t 0 = 0 ∧ win0_2.index t 1 = 0)
theorem idxW3 : ∀ t : Fin cfg0.N, win0_3.index t 0 = 0 ∧ win0_3.index t 1 = 0 :=
  (by decide +kernel : ∀ t : Fin grid0.N, win0_3.index t 0 = 0 ∧ win0_3.index t 1 = 0)
theorem idxW4 : ∀ t : Fin cfg0.N, win0_4.index t 0 = 0 ∧ win0_4.index t 1 = 0 :=
  (by decide +kernel : ∀ t : Fin grid0.N, win0_4.index t 0 = 0 ∧ win0_4.index t 1 = 0)
theorem idxW5 : ∀ t : Fin cfg0.N, win0_5.index t 0 = 0 ∧ win0_5.index t 1 = 0 :=
  (by decide +kernel : ∀ t : Fin grid0.N, win0_5.index t 0 = 0 ∧ win0_5.index t 1 = 0)

/-! ## Each window's block read at an index -/

/-- The adjacency block at a point whose block index is `b`: rows `400 b …` of the adjacency. -/
theorem iblk0_apply (c : Dev nD) (t : Fin cfg0.N) (b : ℕ) (hb : win0_0.index t 0 = b) (x : S400x10000.Idx) (k : S10000x10000.Idx)
    (hk0 : (k 0).val = 400 * b + (x 0).val) (hk1 : (k 1).val = (x 1).val) :
    (iblk m c 0 t : Vec Ideal S400x10000 .f32) x = aA m c k := by
  unfold iblk
  rw [View.read_apply]
  show V m c main_arg1 _ = m ((c : Thread nD τ).loc main_arg1) _
  rw [V_main_arg1]
  congr 1
  funext a
  apply Fin.ext
  match a with
  | ⟨0, _⟩ => show win0_0.index t 0 * 400 + 1 * (x 0).val = (k 0).val; rw [hb, hk0]; omega
  | ⟨1, _⟩ => show win0_0.index t 1 * 10000 + 1 * (x 1).val = (k 1).val; rw [idx0_1 t, hk1]; omega

theorem iblk1_apply (c : Dev nD) (t : Fin cfg0.N) (x : S10000x256.Idx) : (iblk m c 1 t : Vec Ideal S10000x256 .f32) x = aX m c x := by
  unfold iblk
  rw [View.read_apply]
  show V m c main_arg0 _ = m ((c : Thread nD τ).loc main_arg0) _
  rw [V_main_arg0]
  congr 1
  funext a
  apply Fin.ext
  match a with
  | ⟨0, _⟩ => show win0_1.index t 0 * 10000 + 1 * (x 0).val = (x 0).val; rw [(idxW1 t).1]; omega
  | ⟨1, _⟩ => show win0_1.index t 1 * 256 + 1 * (x 1).val = (x 1).val; rw [(idxW1 t).2]; omega

theorem iblk2_apply (c : Dev nD) (t : Fin cfg0.N) (x : S256x256.Idx) : (iblk m c 2 t : Vec Ideal S256x256 .bf16) x = aW0 m c x := by
  refine Eq.trans ?_ (V_v0 m c x)
  unfold iblk
  rw [View.read_apply]
  show V m c main_v0 _ = V m c main_v0 _
  congr 1
  funext a
  apply Fin.ext
  match a with
  | ⟨0, _⟩ => show win0_2.index t 0 * 256 + 1 * (x 0).val = (x 0).val; rw [(idxW2 t).1]; omega
  | ⟨1, _⟩ => show win0_2.index t 1 * 256 + 1 * (x 1).val = (x 1).val; rw [(idxW2 t).2]; omega

theorem iblk4_apply (c : Dev nD) (t : Fin cfg0.N) (x : S256x256.Idx) : (iblk m c 4 t : Vec Ideal S256x256 .bf16) x = aW1 m c x := by
  refine Eq.trans ?_ (V_v2 m c x)
  unfold iblk
  rw [View.read_apply]
  show V m c main_v2 _ = V m c main_v2 _
  congr 1
  funext a
  apply Fin.ext
  match a with
  | ⟨0, _⟩ => show win0_4.index t 0 * 256 + 1 * (x 0).val = (x 0).val; rw [(idxW4 t).1]; omega
  | ⟨1, _⟩ => show win0_4.index t 1 * 256 + 1 * (x 1).val = (x 1).val; rw [(idxW4 t).2]; omega

theorem iblk3_apply (c : Dev nD) (t : Fin cfg0.N) (u : Fin 256) : (iblk m c 3 t : Vec Ideal S1x256 .f32) (ix2 (0 : Fin 1) u) = ab0 m c (ix1 u) := by
  refine Eq.trans ?_ (V_v1 m c u)
  unfold iblk
  rw [View.read_apply]
  show V m c main_v1 _ = V m c main_v1 _
  congr 1
  funext a
  apply Fin.ext
  match a with
  | ⟨0, _⟩ => show win0_3.index t 0 * 1 + 1 * 0 = 0; rw [(idxW3 t).1]
  | ⟨1, _⟩ => show win0_3.index t 1 * 256 + 1 * u.val = u.val; rw [(idxW3 t).2]; omega

theorem iblk5_apply (c : Dev nD) (t : Fin cfg0.N) (u : Fin 256) : (iblk m c 5 t : Vec Ideal S1x256 .f32) (ix2 (0 : Fin 1) u) = ab1 m c (ix1 u) := by
  refine Eq.trans ?_ (V_v3 m c u)
  unfold iblk
  rw [View.read_apply]
  show V m c main_v3 _ = V m c main_v3 _
  congr 1
  funext a
  apply Fin.ext
  match a with
  | ⟨0, _⟩ => show win0_5.index t 0 * 1 + 1 * 0 = 0; rw [(idxW5 t).1]
  | ⟨1, _⟩ => show win0_5.index t 1 * 256 + 1 * u.val = u.val; rw [(idxW5 t).2]; omega

/-! ## The kept arrays and the output blocks at an index -/

/-- The first kept array is the features. -/
theorem x16_apply (c : Dev nD) (j : S10000x256.Idx) : x16 m c j = aX m c j :=
  (payA_apply (iblk m c 1 t0) j).trans (iblk1_apply m c t0 j)

/-- The second kept array, wherever it is filled, is `relu ((A · X) · W0 + b0) · W1`. -/
theorem S1spec_apply (c : Dev nD) (r : Fin 10000) (q : Fin 256) :
    S1spec m c (ix2 r q) = Cert.Spec.kept (aX m c) (aA m c) (aW0 m c) (ab0 m c) (aW1 m c) r q := by
  have hr : r.val < 10000 := r.isLt
  let t : Fin cfg0.N := ⟨r.val / 400 + 1, by rw [show cfg0.N = 51 from N_0]; omega⟩
  let p : Fin 400 := ⟨r.val % 400, Nat.mod_lt _ (by norm_num)⟩
  have h1 : 1 ≤ t.val := by show 1 ≤ r.val / 400 + 1; omega
  have h25 : t.val ≤ 25 := by show r.val / 400 + 1 ≤ 25; omega
  have hA : ∀ k : Fin 10000, (iblk m c 0 t : Vec Ideal S400x10000 .f32) (ix2 p k) = aA m c (ix2 r k) := fun k =>
    iblk0_apply m c t (t.val - 1) (idx0_B t h1 h25) (ix2 p k) (ix2 r k)
      (by show r.val = 400 * (r.val / 400 + 1 - 1) + r.val % 400; omega) rfl
  show keptAt m c t (ix2 p q) = _
  unfold keptAt
  refine (payB_apply (iblk m c 0 t) (x16 m c) (iblk m c 2 t) (iblk m c 3 t) (iblk m c 4 t) p q).trans ?_
  unfold Cert.Spec.kept Cert.Spec.hiddenK Cert.Spec.aggregated
  simp only [hA, x16_apply, iblk2_apply, iblk3_apply, iblk4_apply]

/-- The output block of a second-pass point is the convolution on its rows. -/
theorem outSpec_apply (c : Dev nD) (t : Fin cfg0.N) (h26 : 26 ≤ t.val) (p : Fin 400) (q : Fin 256) (r : Fin 10000)
    (hr : r.val = 400 * (50 - t.val) + p.val) :
    outSpec m c t (ix2 p q) = G m c (ix2 r q) := by
  have hA : ∀ k : Fin 10000, (iblk m c 0 t : Vec Ideal S400x10000 .f32) (ix2 p k) = aA m c (ix2 r k) := fun k =>
    iblk0_apply m c t (50 - t.val) (idx0_C t h26) (ix2 p k) (ix2 r k) hr rfl
  unfold outSpec
  refine (payC_apply (iblk m c 0 t) (S1spec m c) (iblk m c 5 t) p q).trans ?_
  unfold G Cert.Spec.ker
  simp only [hA, S1spec_apply, iblk5_apply]

/-! ## From the blocks to the array -/

/-- What a second-pass point writes back is its block of `G`. -/
theorem flushed_eq (c : Dev nD) (t : Fin cfg0.N) (hf : (cfg0.win 6).flush t = true) :
    (dats m 0 c).flushed 6 t = ((cfg0.win 6).blk t).view.read (Elt Ideal) (G m c) := by
  have hN : t.val < 51 := lt_of_lt_of_eq t.isLt (show cfg0.N = 51 from N_0)
  have h26 : 26 ≤ t.val := (flush6 t).mp hf
  show (cfg0.win 6).cut (grid0.coords t) ((dats m 0 c).after 6 t) = _
  rw [after0_6]
  funext y
  obtain ⟨p, q, rfl⟩ : ∃ (p : Fin 400) (q : Fin 256), y = ix2 p q := ⟨y 0, y 1, eq_ix2 y⟩
  rw [View.read_apply]
  have hp : p.val < 400 := p.isLt
  refine (outSpec_apply m c t h26 p q ⟨400 * (50 - t.val) + p.val, by omega⟩ rfl).trans ?_
  congr 1
  funext a
  apply Fin.ext
  match a with
  | ⟨0, _⟩ => show 400 * (50 - t.val) + p.val = win0_6.index t 0 * 400 + 1 * p.val; rw [idx6_C t h26]; omega
  | ⟨1, _⟩ => show q.val = win0_6.index t 1 * 256 + 1 * q.val; rw [idx6_1 t]; omega

/-- The 25 blocks written back tile the result array, so it ends holding `G`. -/
theorem final_o (c : Dev nD) : (dats m 0 c).arrAt 6 cfg0.N = G m c :=
  (dats m 0 c).arrAt_eq_of_cover 6 (G m c) (flushed_eq m c) fun i => by
    have h0 : (i 0 : Nat) < 10000 := (i 0).isLt
    have h1 : (i 1 : Nat) < 256 := (i 1).isLt
    let t : Fin cfg0.N := ⟨50 - (i 0 : Nat) / 400, by rw [show cfg0.N = 51 from N_0]; omega⟩
    have h26 : 26 ≤ t.val := by show 26 ≤ 50 - (i 0 : Nat) / 400; omega
    refine ⟨t, (flush6 t).mpr h26, ?_⟩
    show i ∈ ((View.whole main_v4).slice (win0_6.rect t)).set
    rw [View.set_slice_whole, Rect.mem_set_unit]
    intro a
    match a with
    | ⟨0, _⟩ =>
      show win0_6.index t 0 * win0_6.size 0 ≤ (i 0 : Nat) ∧ (i 0 : Nat) < win0_6.index t 0 * win0_6.size 0 + win0_6.xsize (grid0.coords t) 0
      rw [idx6_C t h26, (xsize6 t).1, show win0_6.size 0 = 400 from rfl]
      show (50 - (50 - (i 0 : Nat) / 400)) * 400 ≤ (i 0 : Nat) ∧ (i 0 : Nat) < (50 - (50 - (i 0 : Nat) / 400)) * 400 + 400
      omega
    | ⟨1, _⟩ =>
      show win0_6.index t 1 * win0_6.size 1 ≤ (i 1 : Nat) ∧ (i 1 : Nat) < win0_6.index t 1 * win0_6.size 1 + win0_6.xsize (grid0.coords t) 1
      rw [idx6_1 t, (xsize6 t).2]; omega

/-- The run, read: the result array ends at `G`, the arguments unchanged. -/
theorem run : θ_run defs (onTc (τ := τ) (main (F := Ideal))) ⟨m, fun _ => 0, ρ⟩ fun r => ∀ c : Dev nD,
      r.2.mem ((c.tc : Thread nD τ).loc main_v4) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final_o m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main (F := Ideal) m ρ)

end Cert.KernelIdeal.HandValue

end
-- ==== Proof.Algebra.lean ====
import proofs.«123976_g54683523612746_cont_9to1_m_282_10_alg».proof.Proof.Spec
import Mathlib.Algebra.BigOperators.Fin
import Mathlib.Algebra.BigOperators.Ring.Finset
import Mathlib.Data.EReal.Operations

/-!
The algebraic law of this certificate: on real-valued arrays the two arrangements of the two-layer graph convolution
(`Cert.Spec.ker` and `Cert.Spec.ref`) are the same function.

The road: every array is the coercion of a real array; each stage of either arrangement is then the coercion of the
corresponding real stage (the coercion `ℝ → EReal` commutes with products, sums, finite sums and `max`); a sum over the
10000 neighbours taken half by half is the whole sum; and on the reals a product of three matrices reassociates.
-/

noncomputable section

open scoped BigOperators

namespace Cert.Spec

open Idealize.ShloMosaic Idealize.ShloMosaic.ValueIdx

/-! ## General lemmas -/

/-- The coercion of a finite real sum is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The coercion of a real maximum is the maximum of the coercions. -/
theorem coe_max (a b : ℝ) : ((max a b : ℝ) : EReal) = max (a : EReal) (b : EReal) :=
  EReal.coe_strictMono.monotone.map_max

/-- Reassociating a row-times-matrix-times-column product: `∑ v, (∑ k, a k * x k v) * w v = ∑ k, a k * ∑ v, x k v * w v`. -/
theorem sum_mul_assoc {ι κ : Type*} [Fintype ι] [Fintype κ] (a : ι → ℝ) (x : ι → κ → ℝ) (w : κ → ℝ) :
    ∑ v, (∑ k, a k * x k v) * w v = ∑ k, a k * ∑ v, x k v * w v := by
  simp only [Finset.sum_mul, Finset.mul_sum]
  rw [Finset.sum_comm]
  simp only [mul_assoc]

/-- A real sum over the 10000 neighbours is the sum over the first 5000 plus the sum over the last 5000. -/
theorem sum_halves (f : Fin 10000 → ℝ) :
    (∑ k : Fin 5000, f (lo k)) + ∑ k : Fin 5000, f (hi k) = ∑ k : Fin 10000, f k := by
  have h := Fin.sum_univ_add (a := 5000) (b := 5000) (f : Fin (5000 + 5000) → ℝ)
  rw [h]
  rfl

/-! ## The real stages -/

variable (x : SX.Idx → ℝ) (a : SA.Idx → ℝ) (w0 : SW.Idx → ℝ) (c0 : Sb.Idx → ℝ) (w1 : SW.Idx → ℝ) (c1 : Sb.Idx → ℝ)

/-- `x · w0` on the reals -/
def support0R (p : Fin 10000) (u : Fin 256) : ℝ := ∑ v : Fin 256, x (ix2 p v) * w0 (ix2 v u)
/-- `relu (a · (x · w0) + c0)` on the reals -/
def hiddenR (p : Fin 10000) (u : Fin 256) : ℝ :=
  max ((∑ k : Fin 10000, a (ix2 p k) * support0R x w0 k u) + c0 (ix1 u)) 0
/-- `hiddenR · w1` on the reals -/
def support1R (p : Fin 10000) (q : Fin 256) : ℝ := ∑ u : Fin 256, hiddenR x a w0 c0 p u * w1 (ix2 u q)
/-- the whole two-layer convolution on the reals -/
def refR (i : SX.Idx) : ℝ := (∑ k : Fin 10000, a (ix2 (i 0) k) * support1R x a w0 c0 w1 k (i 1)) + c1 (ix1 (i 1))
/-- `a · x` on the reals -/
def aggregatedR (p : Fin 10000) (v : Fin 256) : ℝ := ∑ k : Fin 10000, a (ix2 p k) * x (ix2 k v)

/-- On the reals `(a · x) · w0 = a · (x · w0)`, so the hidden layer may be computed either way. -/
theorem hiddenR_eq (p : Fin 10000) (u : Fin 256) :
    hiddenR x a w0 c0 p u = max ((∑ v : Fin 256, aggregatedR x a p v * w0 (ix2 v u)) + c0 (ix1 u)) 0 := by
  unfold hiddenR aggregatedR support0R
  rw [sum_mul_assoc (fun k => a (ix2 p k)) (fun k v => x (ix2 k v)) (fun v => w0 (ix2 v u))]

/-! ## The reference's stages are the real stages -/

theorem support0_coe (p : Fin 10000) (u : Fin 256) :
    support0 (fun j => (x j : EReal)) (fun j => (w0 j : EReal)) p u = (support0R x w0 p u : EReal) := by
  unfold support0 support0R
  rw [coe_sum]
  simp only [EReal.coe_mul]

theorem hidden_coe (p : Fin 10000) (u : Fin 256) :
    hidden (fun j => (x j : EReal)) (fun j => (a j : EReal)) (fun j => (w0 j : EReal)) (fun j => (c0 j : EReal)) p u
      = (hiddenR x a w0 c0 p u : EReal) := by
  unfold hidden hiddenR
  simp only [support0_coe]
  rw [coe_max, EReal.coe_add, coe_sum]
  simp only [EReal.coe_mul, EReal.coe_zero]

theorem support1_coe (p : Fin 10000) (q : Fin 256) :
    support1 (fun j => (x j : EReal)) (fun j => (a j : EReal)) (fun j => (w0 j : EReal)) (fun j => (c0 j : EReal))
      (fun j => (w1 j : EReal)) p q = (support1R x a w0 c0 w1 p q : EReal) := by
  unfold support1 support1R
  simp only [hidden_coe]
  rw [coe_sum]
  simp only [EReal.coe_mul]

theorem ref_coe_at (p : Fin 10000) (q : Fin 256) :
    (∑ k : Fin 10000, (a (ix2 p k) : EReal) * support1 (fun j => (x j : EReal)) (fun j => (a j : EReal))
        (fun j => (w0 j : EReal)) (fun j => (c0 j : EReal)) (fun j => (w1 j : EReal)) k q) + (c1 (ix1 q) : EReal)
      = (((∑ k : Fin 10000, a (ix2 p k) * support1R x a w0 c0 w1 k q) + c1 (ix1 q) : ℝ) : EReal) := by
  simp only [support1_coe]
  rw [EReal.coe_add, coe_sum]
  simp only [EReal.coe_mul]

theorem ref_coe (i : SX.Idx) :
    ref (fun j => (x j : EReal)) (fun j => (a j : EReal)) (fun j => (w0 j : EReal)) (fun j => (c0 j : EReal))
      (fun j => (w1 j : EReal)) (fun j => (c1 j : EReal)) i = (refR x a w0 c0 w1 c1 i : EReal) :=
  ref_coe_at x a w0 c0 w1 c1 (i 0) (i 1)

/-! ## The kernel's stages are the same real stages -/

theorem aggregated_coe (p : Fin 10000) (v : Fin 256) :
    aggregated (fun j => (x j : EReal)) (fun j => (a j : EReal)) p v = (aggregatedR x a p v : EReal) := by
  unfold aggregated aggregatedR halves
  rw [← sum_halves (fun k => a (ix2 p k) * x (ix2 k v)), EReal.coe_add, coe_sum, coe_sum]
  simp only [EReal.coe_mul]

theorem hiddenK_coe (p : Fin 10000) (u : Fin 256) :
    hiddenK (fun j => (x j : EReal)) (fun j => (a j : EReal)) (fun j => (w0 j : EReal)) (fun j => (c0 j : EReal)) p u
      = (hiddenR x a w0 c0 p u : EReal) := by
  rw [hiddenR_eq]
  unfold hiddenK
  simp only [aggregated_coe]
  rw [coe_max, EReal.coe_add, coe_sum]
  simp only [EReal.coe_mul, EReal.coe_zero]

theorem kept_coe (p : Fin 10000) (q : Fin 256) :
    kept (fun j => (x j : EReal)) (fun j => (a j : EReal)) (fun j => (w0 j : EReal)) (fun j => (c0 j : EReal))
      (fun j => (w1 j : EReal)) p q = (support1R x a w0 c0 w1 p q : EReal) := by
  unfold kept support1R
  simp only [hiddenK_coe]
  rw [coe_sum]
  simp only [EReal.coe_mul]

theorem ker_coe_at (p : Fin 10000) (q : Fin 256) :
    (halves fun k => (a (ix2 p k) : EReal) * kept (fun j => (x j : EReal)) (fun j => (a j : EReal))
        (fun j => (w0 j : EReal)) (fun j => (c0 j : EReal)) (fun j => (w1 j : EReal)) k q) + (c1 (ix1 q) : EReal)
      = (((∑ k : Fin 10000, a (ix2 p k) * support1R x a w0 c0 w1 k q) + c1 (ix1 q) : ℝ) : EReal) := by
  unfold halves
  simp only [kept_coe]
  rw [← sum_halves (fun k => a (ix2 p k) * support1R x a w0 c0 w1 k q), EReal.coe_add, EReal.coe_add,
    coe_sum, coe_sum]
  simp only [EReal.coe_mul]

theorem ker_coe (i : SX.Idx) :
    ker (fun j => (x j : EReal)) (fun j => (a j : EReal)) (fun j => (w0 j : EReal)) (fun j => (c0 j : EReal))
      (fun j => (w1 j : EReal)) (fun j => (c1 j : EReal)) i = (refR x a w0 c0 w1 c1 i : EReal) :=
  ker_coe_at x a w0 c0 w1 c1 (i 0) (i 1)

end Cert.Spec

namespace Cert.Spec

open Idealize.ShloMosaic Idealize.ShloMosaic.ValueIdx

/-- THE LAW: on real-valued arrays the kernel's arrangement and the reference's arrangement agree. -/
theorem ker_eq_ref {X : SX.Idx → EReal} {A : SA.Idx → EReal} {W0 : SW.Idx → EReal} {b0 : Sb.Idx → EReal}
    {W1 : SW.Idx → EReal} {b1 : Sb.Idx → EReal}
    (hX : RealValued X) (hA : RealValued A) (hW0 : RealValued W0) (hb0 : RealValued b0)
    (hW1 : RealValued W1) (hb1 : RealValued b1) :
    ker X A W0 b0 W1 b1 = ref X A W0 b0 W1 b1 := by
  choose x hx using hX
  choose a ha using hA
  choose w0 hw0 using hW0
  choose c0 hc0 using hb0
  choose w1 hw1 using hW1
  choose c1 hc1 using hb1
  obtain rfl : X = fun j => (x j : EReal) := funext hx
  obtain rfl : A = fun j => (a j : EReal) := funext ha
  obtain rfl : W0 = fun j => (w0 j : EReal) := funext hw0
  obtain rfl : b0 = fun j => (c0 j : EReal) := funext hc0
  obtain rfl : W1 = fun j => (w1 j : EReal) := funext hw1
  obtain rfl : b1 = fun j => (c1 j : EReal) := funext hc1
  funext i
  rw [ker_coe, ref_coe]

end Cert.Spec

end
-- ==== Proof.RefSide.lean ====
import proofs.«123976_g54683523612746_cont_9to1_m_282_10_alg».proof.Proof.Gen.ReferenceIdeal.Read
import proofs.«123976_g54683523612746_cont_9to1_m_282_10_alg».proof.Proof.Spec
import Idealize.ShloMosaic.Lib.ValueIdx
import Idealize.ShloMosaic.Lib.Pipeline.Value
import Idealize.ShloMosaic.PureOps.Ideal.Laws

/-!
The reference program, read at an index, is the reference's arrangement `Cert.Spec.ref` of the two-layer graph
convolution: each matrix product is the sum over its whole contracted range, the bias is broadcast along the nodes, and
the rectifier is the maximum with zero. One lemma per stage, each stated at an index given by its coordinates.
-/

noncomputable section

open scoped BigOperators

namespace Cert.ReferenceIdeal.RefSide

open Cert.ReferenceIdeal Cert.ReferenceIdeal.Gen Cert.ReferenceIdeal.Read Idealize.ShloMosaic Idealize.ShloMosaic.ValueIdx

/-! ## The operand indices of each stage, by coordinates -/

theorem lidx0 (p : Fin 10000) (u v : Fin 256) : lidx_main_v0 (ix2 p u) v = ix2 p v :=
  funext fun a => Fin.ext (by match a with | ⟨0, _⟩ => rfl | ⟨1, _⟩ => rfl)
theorem ridx0 (p : Fin 10000) (u v : Fin 256) : ridx_main_v0 (ix2 p u) v = ix2 v u :=
  funext fun a => Fin.ext (by match a with | ⟨0, _⟩ => rfl | ⟨1, _⟩ => rfl)
theorem lidx1 (p : Fin 10000) (u : Fin 256) (k : Fin 10000) : lidx_main_v1 (ix2 p u) k = ix2 p k :=
  funext fun a => Fin.ext (by match a with | ⟨0, _⟩ => rfl | ⟨1, _⟩ => rfl)
theorem ridx1 (p : Fin 10000) (u : Fin 256) (k : Fin 10000) : ridx_main_v1 (ix2 p u) k = ix2 k u :=
  funext fun a => Fin.ext (by match a with | ⟨0, _⟩ => rfl | ⟨1, _⟩ => rfl)
theorem idx23 (p : Fin 10000) (u : Fin 256) : idx_main_v2 (idx_main_v3 (ix2 p u)) = ix1 u :=
  funext fun a => Fin.ext (by match a with | ⟨0, _⟩ => rfl)
theorem lidx6 (p : Fin 10000) (q u : Fin 256) : lidx_main_v6 (ix2 p q) u = ix2 p u :=
  funext fun a => Fin.ext (by match a with | ⟨0, _⟩ => rfl | ⟨1, _⟩ => rfl)
theorem ridx6 (p : Fin 10000) (q u : Fin 256) : ridx_main_v6 (ix2 p q) u = ix2 u q :=
  funext fun a => Fin.ext (by match a with | ⟨0, _⟩ => rfl | ⟨1, _⟩ => rfl)
theorem lidx7 (p : Fin 10000) (q : Fin 256) (k : Fin 10000) : lidx_main_v7 (ix2 p q) k = ix2 p k :=
  funext fun a => Fin.ext (by match a with | ⟨0, _⟩ => rfl | ⟨1, _⟩ => rfl)
theorem ridx7 (p : Fin 10000) (q : Fin 256) (k : Fin 10000) : ridx_main_v7 (ix2 p q) k = ix2 k q :=
  funext fun a => Fin.ext (by match a with | ⟨0, _⟩ => rfl | ⟨1, _⟩ => rfl)
theorem idx89 (p : Fin 10000) (q : Fin 256) : idx_main_v8 (idx_main_v9 (ix2 p q)) = ix1 q :=
  funext fun a => Fin.ext (by match a with | ⟨0, _⟩ => rfl)

/-! ## The stages -/

variable (x0 : (⟨S10000x256, .f32⟩ : BufTy).Contents (Elt Ideal)) (x1 : (⟨S10000x10000, .f32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))

/-- the first product, features by weights -/
theorem v0_at (p : Fin 10000) (u : Fin 256) :
    val_main_v0 (F := Ideal) x0 x2 (ix2 p u) = Cert.Spec.support0 x0 x2 p u := by
  rw [val_main_v0_apply]
  unfold Cert.Spec.support0
  refine Finset.sum_congr rfl fun v _ => ?_
  rw [lidx0, ridx0]

/-- the adjacency applied to it -/
theorem v1_at (p : Fin 10000) (u : Fin 256) :
    val_main_v1 (F := Ideal) x0 x1 x2 (ix2 p u) = ∑ k : Fin 10000, x1 (ix2 p k) * Cert.Spec.support0 x0 x2 k u := by
  rw [val_main_v1_apply]
  refine Finset.sum_congr rfl fun k _ => ?_
  rw [lidx1, ridx1, v0_at]

/-- the broadcast first bias -/
theorem v3_at (p : Fin 10000) (u : Fin 256) : val_main_v3 (F := Ideal) x3 (ix2 p u) = x3 (ix1 u) := by
  rw [val_main_v3_apply, val_main_v2_apply, idx23]

/-- the hidden layer: the rectifier is the maximum with zero -/
theorem v5_at (p : Fin 10000) (u : Fin 256) :
    val_main_v5 (F := Ideal) x0 x1 x2 x3 (ix2 p u) = Cert.Spec.hidden x0 x1 x2 x3 p u := by
  rw [val_main_v5_apply, val_main_v4_apply, v1_at, v3_at, val_main_call0_v0_apply, val_main_call0_cst_apply]
  rw [Ideal.ofBits_def, Ideal.ofBits_zero_f32]
  rfl

/-- the hidden layer by the second weights -/
theorem v6_at (p : Fin 10000) (q : Fin 256) :
    val_main_v6 (F := Ideal) x0 x1 x2 x3 x4 (ix2 p q) = Cert.Spec.support1 x0 x1 x2 x3 x4 p q := by
  rw [val_main_v6_apply]
  unfold Cert.Spec.support1
  refine Finset.sum_congr rfl fun u _ => ?_
  rw [lidx6, ridx6, v5_at]

/-- the adjacency applied to it -/
theorem v7_at (p : Fin 10000) (q : Fin 256) :
    val_main_v7 (F := Ideal) x0 x1 x2 x3 x4 (ix2 p q)
      = ∑ k : Fin 10000, x1 (ix2 p k) * Cert.Spec.support1 x0 x1 x2 x3 x4 k q := by
  rw [val_main_v7_apply]
  refine Finset.sum_congr rfl fun k _ => ?_
  rw [lidx7, ridx7, v6_at]

/-- the broadcast second bias -/
theorem v9_at (p : Fin 10000) (q : Fin 256) : val_main_v9 (F := Ideal) x5 (ix2 p q) = x5 (ix1 q) := by
  rw [val_main_v9_apply, val_main_v8_apply, idx89]

/-- THE REFERENCE SIDE: the reference program's result is the reference's arrangement of the convolution. -/
theorem ref_eq : val_main_v10 (F := Ideal) x0 x1 x2 x3 x4 x5 = Cert.Spec.ref x0 x1 x2 x3 x4 x5 := by
  funext i
  obtain ⟨p, q, rfl⟩ : ∃ (p : Fin 10000) (q : Fin 256), i = ix2 p q := ⟨i 0, i 1, eq_ix2 i⟩
  rw [val_main_v10_apply, v7_at, v9_at]
  rfl

end Cert.ReferenceIdeal.RefSide

end
-- ==== Proof.Finite.lean ====
import proofs.«123976_g54683523612746_cont_9to1_m_282_10_alg».proof.Proof.Gen.Pre_finite_inputs
import proofs.«123976_g54683523612746_cont_9to1_m_282_10_alg».proof.Proof.Spec
import Idealize.ShloMosaic.Lib.ReduceAll
import Idealize.ShloMosaic.Lib.Pipeline.Value
import Idealize.ShloMosaic.Lib.ValueIdx
import Idealize.ShloMosaic.PureOps.Ideal.Laws

/-!
From the precondition to real-valuedness. The precondition says of each of the six arrays that every entry has an
absolute value strictly below `+∞`, all these facts joined by `and`. An extended real whose absolute value
`max x (-x)` is below `+∞` is neither infinity, hence a real number.
-/

noncomputable section

namespace Cert.Finite

open Idealize.ShloMosaic Idealize.ShloMosaic.ValueIdx Cert.Pre_finite_inputs

/-- the scalar shape has one index -/
instance subsingleton_scalar : Subsingleton S_.Idx := ⟨fun a b => funext fun d => d.elim0⟩

/-- the word `0x7F800000` denotes `+∞` -/
theorem ofBits_inf : Ideal.ofBits .f32 0x7F800000#32 = (⊤ : EReal) := by simp [Ideal.ofBits, Ideal.ieee]

/-- an extended real whose absolute value is strictly below `+∞` is a real number -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- `all (|x| < +∞)` over an array of any shape says every entry is a real number -/
theorem realValued_of_all {s : Shape} {axes : List (Fin s.rank)} (hb : S_.BroadcastsInDim s (![] : Fin 0 → Fin s.rank))
    (hr : s.ReducesTo axes S_) (hu : 0 < S_.numel) (x : FVec Ideal s .f32) (j : S_.Idx)
    (e : Host.reduce IntOp.andi (cmpf .olt (Host.absf x) (broadcastInDim s ![] hb (constant (F := Ideal) S_ .f32 0x7F800000#32)))
      (constantI S_ 1 1#1) hr hu j = 1#1) :
    ∀ i : s.Idx, ∃ r : ℝ, x i = (r : EReal) := by
  intro i
  have h1 := Host.reduce_andi_all _ _ hr hu j e i
  rw [cmpf_apply, broadcastInDim_apply _ hb _ i (fun a => a.elim0) (fun a => a.elim0)] at h1
  have h2 : Ideal.cmp .olt (max (x i) (-(x i))) ⊤ = 1#1 := by
    rw [← ofBits_inf]; exact h1
  exact real_of_abs_lt_top (x i) h2

variable [Cert.Pre_finite_inputs.Facts]

/-- THE PRECONDITION READ BACK: if `finite_inputs` of the six arrays is all ones, each array is real-valued. -/
theorem realValued_of_pre (a0 : FVec Ideal S10000x256 .f32) (a1 : FVec Ideal S10000x10000 .f32)
    (a2 : FVec Ideal S256x256 .f32) (a3 : FVec Ideal S256 .f32) (a4 : FVec Ideal S256x256 .f32) (a5 : FVec Ideal S256 .f32)
    (h : Cert.Pre_finite_inputs.fn (F := Ideal) a0 a1 a2 a3 a4 a5 = fun _ => 1#1) :
    Cert.Spec.RealValued a0 ∧ Cert.Spec.RealValued a1 ∧ Cert.Spec.RealValued a2 ∧ Cert.Spec.RealValued a3
      ∧ Cert.Spec.RealValued a4 ∧ Cert.Spec.RealValued a5 := by
  have h0 := congrFun h ix0
  dsimp only [Cert.Pre_finite_inputs.fn, Cert.Pre_finite_inputs.fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨realValued_of_all _ _ _ a0 _ e0, realValued_of_all _ _ _ a1 _ e1, realValued_of_all _ _ _ a2 _ e2,
    realValued_of_all _ _ _ a3 _ e3, realValued_of_all _ _ _ a4 _ e4, realValued_of_all _ _ _ a5 _ e5⟩

end Cert.Finite

end
-- ==== Proof.lean ====
/-
  A two-layer dense graph convolution, fused into one kernel, against its plain formulation.

  With `A` the adjacency (10000 × 10000), `X` the features (10000 × 256), `W0`, `W1` the weights and `b0`, `b1` the
  biases, the kernel computes `A · (relu ((A · X) · W0 + b0) · W1) + b1` in one sweep of 51 grid points: the first
  casts the features into a kept array; points 1 to 25 each take 400 rows of `A`, form `(A · X) · W0 + b0`, clamp at
  zero, multiply by `W1` and keep the 400 rows; points 26 to 50 each take 400 rows of `A` again and form the output
  rows from the kept array. Every sum over the 10000 neighbours is taken as two sums over 5000. The reference computes
  `A · (relu (A · (X · W0) + b0) · W1) + b1` with whole sums.

  * The frames (each program runs to the end, faults nowhere, leaves its arguments unchanged): for both readings of the
    kernel, the body is run case by case (Proof/KRuns.lean, Proof/KiRuns.lean) under an invariant that says what the
    two kept arrays hold before each point (Proof/KBody.lean, Proof/KiBody.lean); the reference's is its generated run.
  * The idealization rewrote nothing, so there is nothing to preserve.
  * At the ideal instance the kernel's result array is `Cert.Spec.ker` of the arguments (Proof/KiPay.lean: the three
    payloads at an index; Proof/KiValue.lean: blocks, kept arrays, the tiling of the result), the reference's is
    `Cert.Spec.ref` (Proof/RefSide.lean), and the two agree on real-valued arrays (Proof/Algebra.lean): halving a sum
    regroups it, and `(A · X) · W0 = A · (X · W0)` moves a factor across a finite sum, which is sound on the reals. The
    precondition makes every argument entry real (Proof/Finite.lean).
-/
import proofs.«123976_g54683523612746_cont_9to1_m_282_10_alg».proof.Defs
import proofs.«123976_g54683523612746_cont_9to1_m_282_10_alg».proof.Proof.Gen.Kernel
import proofs.«123976_g54683523612746_cont_9to1_m_282_10_alg».proof.Proof.Gen.KernelIdeal
import proofs.«123976_g54683523612746_cont_9to1_m_282_10_alg».proof.Proof.Gen.ReferenceIdeal
import proofs.«123976_g54683523612746_cont_9to1_m_282_10_alg».proof.Proof.Gen.Pre_finite_inputs
import proofs.«123976_g54683523612746_cont_9to1_m_282_10_alg».proof.Proof.Gen.ReferenceIdeal.Run
import proofs.«123976_g54683523612746_cont_9to1_m_282_10_alg».proof.Proof.Gen.ReferenceIdeal.Read
import proofs.«123976_g54683523612746_cont_9to1_m_282_10_alg».proof.Proof.KBody
import proofs.«123976_g54683523612746_cont_9to1_m_282_10_alg».proof.Proof.KiBody
import proofs.«123976_g54683523612746_cont_9to1_m_282_10_alg».proof.Proof.KiValue
import proofs.«123976_g54683523612746_cont_9to1_m_282_10_alg».proof.Proof.Algebra
import proofs.«123976_g54683523612746_cont_9to1_m_282_10_alg».proof.Proof.RefSide
import proofs.«123976_g54683523612746_cont_9to1_m_282_10_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at one function of arguments that agree: the kernel's arrangement of the
    convolution, which on real-valued arrays is the reference's. -/
theorem algebraic : Cert.algebraic_KernelIdeal_ReferenceIdeal := by
  intro m ρ m' ρ' hpre hagree
  refine ⟨fun c => Cert.KernelIdeal.HandValue.G m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  obtain ⟨r0, r1, r2, r3, r4, r5⟩ := Cert.Finite.realValued_of_pre _ _ _ _ _ _ (hpre c)
  refine (Cert.ReferenceIdeal.Read.val_main_v10_eq _ _ _ _ _ _).trans ?_
  rw [Cert.ReferenceIdeal.RefSide.ref_eq]
  exact (Cert.Spec.ker_eq_ref r0 r1 r2 r3 r4 r5).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
